-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x1024x1024 : Shape := ⟨4, ![64, 1, 1024, 1024]⟩
abbrev S_ : Shape := ⟨0, ![]⟩

class Facts : Prop where
  bcast_S_S64x1x1024x1024 : S_.BroadcastsInDim S64x1x1024x1024 (![] : Fin 0 → Fin S64x1x1024x1024.rank)
  reducesTo_S64x1x1024x1024_S_d0_1_2_3 : S64x1x1024x1024.ReducesTo [0, 1, 2, 3] S_
  h_S_ : 0 < S_.numel

variable [Facts]

def fn {F : FTy → Type} [FloatOps F] (main_arg0 : FVec F S64x1x1024x1024 .f32) (main_arg1 : IVec S64x1x1024x1024 32) : IVec S_ 1 :=
  let main_v0 : FVec F S64x1x1024x1024 .f32 := Host.absf main_arg0
  let main_cst : FVec F S_ .f32 := constant S_ .f32 0x7F800000#32
  let main_v1 : FVec F S64x1x1024x1024 .f32 := broadcastInDim S64x1x1024x1024 ![] bcast_S_S64x1x1024x1024 main_cst
  let main_v2 : IVec S64x1x1024x1024 1 := cmpf .olt main_v0 main_v1
  let main_c : IVec S_ 1 := constantI S_ 1 1#1
  let main_v3 : IVec S_ 1 := (fun x v => Host.reduce IntOp.andi x v reducesTo_S64x1x1024x1024_S_d0_1_2_3 h_S_) main_v2 main_c
  let main_c_0 : IVec S_ 32 := constantI S_ 32 0#32
  let main_v4 : IVec S64x1x1024x1024 32 := broadcastInDim S64x1x1024x1024 ![] bcast_S_S64x1x1024x1024 main_c_0
  let main_v5 : IVec S64x1x1024x1024 1 := cmpi .sge main_arg1 main_v4
  let main_c_1 : IVec S_ 1 := constantI S_ 1 1#1
  let main_v6 : IVec S_ 1 := (fun x v => Host.reduce IntOp.andi x v reducesTo_S64x1x1024x1024_S_d0_1_2_3 h_S_) main_v5 main_c_1
  let main_v7 : IVec S_ 1 := andi main_v3 main_v6
  let main_c_2 : IVec S_ 32 := constantI S_ 32 1#32
  let main_v8 : IVec S64x1x1024x1024 32 := broadcastInDim S64x1x1024x1024 ![] bcast_S_S64x1x1024x1024 main_c_2
  let main_v9 : IVec S64x1x1024x1024 1 := cmpi .sle main_arg1 main_v8
  let main_c_3 : IVec S_ 1 := constantI S_ 1 1#1
  let main_v10 : IVec S_ 1 := (fun x v => Host.reduce IntOp.andi x v reducesTo_S64x1x1024x1024_S_d0_1_2_3 h_S_) main_v9 main_c_3
  let main_v11 : IVec S_ 1 := andi main_v7 main_v10
  main_v11
-- ==== Kernel.lean ====
abbrev S64x1x1024x1024 : Shape := ⟨4, ![64, 1, 1024, 1024]⟩
abbrev S2x8x128 : Shape := ⟨3, ![2, 8, 128]⟩
abbrev S1x1x1024x1024 : Shape := ⟨4, ![1, 1, 1024, 1024]⟩
abbrev S1x8x128 : Shape := ⟨3, ![1, 8, 128]⟩
abbrev S1x1 : Shape := ⟨2, ![1, 1]⟩
abbrev S1024x1024 : Shape := ⟨2, ![1024, 1024]⟩
abbrev S1024x1 : Shape := ⟨2, ![1024, 1]⟩
abbrev S1024x1023 : Shape := ⟨2, ![1024, 1023]⟩
abbrev S1x1024 : Shape := ⟨2, ![1, 1024]⟩
abbrev S1023x1024 : Shape := ⟨2, ![1023, 1024]⟩
abbrev S1x1024x1024 : Shape := ⟨3, ![1, 1024, 1024]⟩
abbrev S1 : Shape := ⟨1, ![1]⟩
abbrev S1x1x1 : Shape := ⟨3, ![1, 1, 1]⟩
abbrev S8x128 : Shape := ⟨2, ![8, 128]⟩
abbrev S2x1x1 : Shape := ⟨3, ![2, 1, 1]⟩
abbrev S2 : Shape := ⟨1, ![2]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S64x1x1024x1024, .f32⟩
  | .hbm, ⟨1, _⟩ => ⟨S64x1x1024x1024, .i32⟩
  | .hbm, ⟨2, _⟩ => ⟨S2x8x128, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .i32⟩
  | .local _ .vmem, ⟨3, _⟩ => ⟨S1x1x1024x1024, .i32⟩
  | .local _ .vmem, ⟨4, _⟩ => ⟨S1x8x128, .f32⟩
  | .local _ .vmem, ⟨5, _⟩ => ⟨S1x8x128, .f32⟩
  | .local _ .vmem, ⟨6, _⟩ => ⟨S1x1, .f32⟩
  | _, _ => ⟨S64x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v69 : BitVec 1 := Scalar.cmpi .eq arg1 c31_i32
  let v70 : BitVec 32 := Scalar.extui v69
  let c0_i32_25 : BitVec 32 := 0#32
  let v71 : BitVec 1 := Scalar.cmpi .ne v70 c0_i32_25
  v71

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  rotates_S1024x1024_d1 : S1024x1024.Rotates 1 none
  slices_S1024x1024_o0_1_S1024x1023 : S1024x1024.Slices ![0, 1] S1024x1023
  concatenates_S1024x1_S1024x1023_S1024x1024_d1 : Shape.Concatenates [S1024x1, S1024x1023] S1024x1024 1
  slices_S1024x1024_o0_0_S1024x1023 : S1024x1024.Slices ![0, 0] S1024x1023
  concatenates_S1024x1023_S1024x1_S1024x1024_d1 : Shape.Concatenates [S1024x1023, S1024x1] S1024x1024 1
  rotates_S1024x1024_d0 : S1024x1024.Rotates 0 none
  slices_S1024x1024_o1_0_S1023x1024 : S1024x1024.Slices ![1, 0] S1023x1024
  concatenates_S1x1024_S1023x1024_S1024x1024_d0 : Shape.Concatenates [S1x1024, S1023x1024] S1024x1024 0
  slices_S1024x1024_o0_0_S1023x1024 : S1024x1024.Slices ![0, 0] S1023x1024
  concatenates_S1023x1024_S1x1024_S1024x1024_d0 : Shape.Concatenates [S1023x1024, S1x1024] S1024x1024 0
  natLt_1_32 : 1 < 32
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S64x1x1024x1024.size a
  hwx0_0 : ∀ i : grid0.Coords, EltTy.bits .f32 = 32 ∨ (Rect.block (s := S64x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S64x1x1024x1024.size a
  hwx0_1 : ∀ i : grid0.Coords, EltTy.bits .i32 = 32 ∨ (Rect.block (s := S64x1x1024x1024) S1x1x1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1x1024x1024 : Shape := ⟨4, ![64, 1, 1024, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S64x1x1024x1024, .f32⟩
  | .hbm, ⟨1, _⟩ => ⟨S64x1x1024x1024, .i32⟩
  | .hbm, ⟨2, _⟩ => ⟨S64x1x1024x1024, .f32⟩
  | .hbm, ⟨3, _⟩ => ⟨S_, .f32⟩
  | .hbm, ⟨4, _⟩ => ⟨S_, .f32⟩
  | .hbm, ⟨5, _⟩ => ⟨S64x1x1024x1024, .f32⟩
  | .hbm, ⟨6, _⟩ => ⟨S_, .f32⟩
  | .hbm, ⟨7, _⟩ => ⟨S_, .f32⟩
  | .hbm, ⟨8, _⟩ => ⟨S64x1x1024x1024, .f32⟩
  | .hbm, ⟨9, _⟩ => ⟨S64x1x1024x1024, .f32⟩
  | .hbm, ⟨10, _⟩ => ⟨S_, .f32⟩
  | .hbm, ⟨11, _⟩ => ⟨S64x1x1024x1024, .f32⟩
  | .hbm, ⟨12, _⟩ => ⟨S64x1x1024x1024, .i1⟩
  | .hbm, ⟨13, _⟩ => ⟨S64x1x1024x1024, .f32⟩
  | .hbm, ⟨14, _⟩ => ⟨S_, .f32⟩
  | .hbm, ⟨15, _⟩ => ⟨S64x1x1024x1024, .f32⟩
  | .hbm, ⟨16, _⟩ => ⟨S64x1x1024x1024, .f32⟩
  | .hbm, ⟨17, _⟩ => ⟨S64x1x1024x1024, .f32⟩
  | .hbm, ⟨18, _⟩ => ⟨S64x1x1024x1024, .f32⟩
  | .hbm, ⟨19, _⟩ => ⟨S64x1x1024x1024, .f32⟩
  | .hbm, ⟨20, _⟩ => ⟨S64x1x1024x1024, .f32⟩
  | .hbm, ⟨21, _⟩ => ⟨S64x1x1024x1024, .f32⟩
  | .hbm, ⟨22, _⟩ => ⟨S64x1x1024x1024, .f32⟩
  | .hbm, ⟨23, _⟩ => ⟨S64x1x1024x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S64x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S64x1x1024x1024_S64x1x1024x1024_w1s1p0_0_w1s1p0_0_w3s1p1_1_w3s1p1_1 : S64x1x1024x1024.ReduceWindows (![1, 1, 3, 3] : Fin 4 → Nat) ![1, 1, 1, 1] ![0, 0, 1, 1] ![0, 0, 1, 1] S64x1x1024x1024
  h_S_ : 0 < S_.numel
  bcast_S_S64x1x1024x1024 : S_.BroadcastsInDim S64x1x1024x1024 (![] : Fin 0 → Fin S64x1x1024x1024.rank)
  reducesTo_S64x1x1024x1024_S_d0_1_2_3 : S64x1x1024x1024.ReducesTo [0, 1, 2, 3] S_

variable [Facts₀]

class Facts : Prop extends Facts₀ where

variable [Facts]
-- ==== Proof.MaskDomain.lean ====
/-
  What the precondition says of the mask: every entry of the integer argument is 0 or 1.
  The precondition is a conjunction of three "for all entries" statements; the second says every entry is at least 0 and
  the third that every entry is at most 1, both as signed 32-bit integers.
-/
import proofs.«151914_j52201032516261_1_alg».proof.Proof.Gen.Pre_finite_inputs
import Idealize.ShloMosaic.Lib.ReduceAll
import Idealize.ShloMosaic.Lib.ValueIdx

noncomputable section

namespace Cert.MaskDomain

open Idealize.ShloMosaic Cert.Pre_finite_inputs Cert.Pre_finite_inputs.Gen

/-- A rank-zero array has one index. -/
instance : Subsingleton S_.Idx := ⟨fun _ _ => funext fun d => d.elim0⟩

/-- Under the precondition every entry of the mask, read as a signed integer, is 0 or 1. -/
theorem mask_01 {F : FTy → Type} [FloatOps F] (x0 : FVec F S64x1x1024x1024 .f32) (x1 : IVec S64x1x1024x1024 32)
    (h : Cert.Pre_finite_inputs.fn (F := F) x0 x1 = fun _ => 1#1) (J : S64x1x1024x1024.Idx) :
    (x1 J).toInt = 0 ∨ (x1 J).toInt = 1 := by
  have e := congrFun h ValueIdx.ix0
  unfold Cert.Pre_finite_inputs.fn at e
  dsimp only at e
  change IntOp.andi (IntOp.andi _ _) _ = 1#1 at e
  rw [IntOp.andi_eq_one, IntOp.andi_eq_one] at e
  obtain ⟨⟨_, e6⟩, e10⟩ := e
  have h6 := Host.reduce_andi_all _ _ _ _ _ e6 J
  have h10 := Host.reduce_andi_all _ _ _ _ _ e10 J
  change IntOp.cmpi .sge (x1 J) 0#32 = 1#1 at h6
  change IntOp.cmpi .sle (x1 J) 1#32 = 1#1 at h10
  rw [IntOp.cmpi_sge] at h6
  rw [IntOp.cmpi_sle] at h10
  have z : (0#32 : BitVec 32).toInt = 0 := by decide
  have o : (1#32 : BitVec 32).toInt = 1 := by decide
  omega

end Cert.MaskDomain

end
-- ==== Proof.Spec.lean ====
/-
  The mathematics both programs compute, over the extended reals, with no program in sight.

  An image is a function of a row and a column, 1024 of each. Reading it "with a border" gives every position of the
  1026 x 1026 bordered image: the image's own pixel (i, j) sits at (i + 1, j + 1), and a border position reads a fixed
  value v. The 3 x 3 neighbourhood of pixel (i, j) is the nine bordered positions (i + di, j + dj), di, dj = 0, 1, 2.

  * A separable filter: a horizontal pass combines each pixel with its left and right neighbours (border v), a vertical
    pass then combines each result with the results above and below (border v again). For max (or min) the two passes
    together are bounded above (below) by u exactly when all nine bordered reads of the ORIGINAL image are.
  * If the border value is below every pixel (for max; above, for min), the nine bordered reads are bounded by u exactly
    when the nine reads with border -inf (+inf) are: the border never decides, because the centre is always a pixel.
  So on an image whose pixels lie in [-1, 2] a separable 3 x 3 max with border -1 is the neighbourhood maximum with
  border -inf, and a separable 3 x 3 min with border 2 the neighbourhood minimum with border +inf.

  The per-pixel loss is max(x, 0) - x z + log(1 + exp(-|x|)), z the 0/1 flag "maximum - minimum > 0".
-/
import Idealize.ShloMosaic.PureOps.Ideal

noncomputable section

namespace Cert.Spec

open Idealize.ShloMosaic

/-- An image read with a one-pixel border of `v`: position `(a, b)` of the bordered image. -/
def pad (v : EReal) (y : Fin 1024 → Fin 1024 → EReal) (a b : ℕ) : EReal :=
  if h : (1 ≤ a ∧ a - 1 < 1024) ∧ (1 ≤ b ∧ b - 1 < 1024) then y ⟨a - 1, h.1.2⟩ ⟨b - 1, h.2.2⟩ else v

theorem pad_of_in (v : EReal) (y : Fin 1024 → Fin 1024 → EReal) {a b : ℕ}
    (h : (1 ≤ a ∧ a - 1 < 1024) ∧ (1 ≤ b ∧ b - 1 < 1024)) : pad v y a b = y ⟨a - 1, h.1.2⟩ ⟨b - 1, h.2.2⟩ := dif_pos h

theorem pad_of_out (v : EReal) (y : Fin 1024 → Fin 1024 → EReal) {a b : ℕ}
    (h : ¬((1 ≤ a ∧ a - 1 < 1024) ∧ (1 ≤ b ∧ b - 1 < 1024))) : pad v y a b = v := dif_neg h

/-- The image's own pixel `(i, j)` sits at `(i + 1, j + 1)`. -/
theorem pad_inside (v : EReal) (y : Fin 1024 → Fin 1024 → EReal) (i j : Fin 1024) :
    pad v y (i.val + 1) (j.val + 1) = y i j := by
  have hi := i.isLt
  have hj := j.isLt
  rw [pad_of_in v y ⟨⟨by omega, by omega⟩, ⟨by omega, by omega⟩⟩]
  exact congrArg₂ y (Fin.ext (Nat.add_sub_cancel _ _)) (Fin.ext (Nat.add_sub_cancel _ _))

/-- A statement about the three offsets 0, 1, 2. -/
theorem forall_fin3 (P : Fin 3 → Prop) : (∀ d, P d) ↔ P 0 ∧ P 1 ∧ P 2 :=
  ⟨fun h => ⟨h 0, h 1, h 2⟩, fun h d => by
    match d with
    | ⟨0, _⟩ => exact h.1
    | ⟨1, _⟩ => exact h.2.1
    | ⟨2, _⟩ => exact h.2.2⟩

/-! ## The border never decides -/

/-- With a border below every pixel, the nine bordered reads around a pixel are bounded above by `u` exactly when the
    nine reads with border `⊥` are. -/
theorem pad_le_iff (c : EReal) (y : Fin 1024 → Fin 1024 → EReal) (hc : ∀ i j, c ≤ y i j) (i j : Fin 1024) (u : EReal) :
    (∀ di dj : Fin 3, pad c y (i.val + di.val) (j.val + dj.val) ≤ u)
      ↔ (∀ di dj : Fin 3, pad ⊥ y (i.val + di.val) (j.val + dj.val) ≤ u) := by
  constructor
  · intro h di dj
    by_cases hin : (1 ≤ i.val + di.val ∧ i.val + di.val - 1 < 1024) ∧ (1 ≤ j.val + dj.val ∧ j.val + dj.val - 1 < 1024)
    · have := h di dj
      rw [pad_of_in c y hin] at this
      rw [pad_of_in ⊥ y hin]
      exact this
    · rw [pad_of_out ⊥ y hin]; exact bot_le
  · intro h di dj
    have hcu : c ≤ u := by
      have := h 1 1
      rw [show i.val + (1 : Fin 3).val = i.val + 1 from rfl, show j.val + (1 : Fin 3).val = j.val + 1 from rfl,
        pad_inside] at this
      exact le_trans (hc i j) this
    by_cases hin : (1 ≤ i.val + di.val ∧ i.val + di.val - 1 < 1024) ∧ (1 ≤ j.val + dj.val ∧ j.val + dj.val - 1 < 1024)
    · have := h di dj
      rw [pad_of_in ⊥ y hin] at this
      rw [pad_of_in c y hin]
      exact this
    · rw [pad_of_out c y hin]; exact hcu

/-- With a border above every pixel, the nine bordered reads around a pixel are bounded below by `u` exactly when the
    nine reads with border `⊤` are. -/
theorem le_pad_iff (c : EReal) (y : Fin 1024 → Fin 1024 → EReal) (hc : ∀ i j, y i j ≤ c) (i j : Fin 1024) (u : EReal) :
    (∀ di dj : Fin 3, u ≤ pad c y (i.val + di.val) (j.val + dj.val))
      ↔ (∀ di dj : Fin 3, u ≤ pad ⊤ y (i.val + di.val) (j.val + dj.val)) := by
  constructor
  · intro h di dj
    by_cases hin : (1 ≤ i.val + di.val ∧ i.val + di.val - 1 < 1024) ∧ (1 ≤ j.val + dj.val ∧ j.val + dj.val - 1 < 1024)
    · have := h di dj
      rw [pad_of_in c y hin] at this
      rw [pad_of_in ⊤ y hin]
      exact this
    · rw [pad_of_out ⊤ y hin]; exact le_top
  · intro h di dj
    have hcu : u ≤ c := by
      have := h 1 1
      rw [show i.val + (1 : Fin 3).val = i.val + 1 from rfl, show j.val + (1 : Fin 3).val = j.val + 1 from rfl,
        pad_inside] at this
      exact le_trans this (hc i j)
    by_cases hin : (1 ≤ i.val + di.val ∧ i.val + di.val - 1 < 1024) ∧ (1 ≤ j.val + dj.val ∧ j.val + dj.val - 1 < 1024)
    · have := h di dj
      rw [pad_of_in ⊤ y hin] at this
      rw [pad_of_in c y hin]
      exact this
    · rw [pad_of_out c y hin]; exact hcu

/-! ## The separable filter -/

/-- The horizontal pass: a pixel combined with its left and right neighbours, border `v`. -/
def hpass (op : EReal → EReal → EReal) (v : EReal) (y : Fin 1024 → Fin 1024 → EReal) (i j : Fin 1024) : EReal :=
  op (y i j) (op (pad v y (i.val + 1) (j.val + 0)) (pad v y (i.val + 1) (j.val + 2)))

/-- The vertical pass: a pixel combined with the ones above and below, border `v`. -/
def vpass (op : EReal → EReal → EReal) (v : EReal) (y : Fin 1024 → Fin 1024 → EReal) (i j : Fin 1024) : EReal :=
  op (y i j) (op (pad v y (i.val + 0) (j.val + 1)) (pad v y (i.val + 2) (j.val + 1)))

/-- A bordered row of the horizontal max pass is bounded above exactly when the three bordered reads of that row are. -/
theorem pad_hpass_max_le_iff (c : EReal) (y : Fin 1024 → Fin 1024 → EReal) (a : ℕ) (j : Fin 1024) (u : EReal) :
    pad c (hpass max c y) a (j.val + 1) ≤ u
      ↔ pad c y a (j.val + 0) ≤ u ∧ pad c y a (j.val + 1) ≤ u ∧ pad c y a (j.val + 2) ≤ u := by
  have hj := j.isLt
  by_cases ha : 1 ≤ a ∧ a - 1 < 1024
  · rw [pad_of_in c (hpass max c y) ⟨ha, ⟨by omega, by omega⟩⟩]
    rw [pad_of_in c y (a := a) (b := j.val + 1) ⟨ha, ⟨by omega, by omega⟩⟩]
    unfold hpass
    have e : (⟨a - 1, ha.2⟩ : Fin 1024).val + 1 = a := by show a - 1 + 1 = a; omega
    have ej : (⟨j.val + 1 - 1, by omega⟩ : Fin 1024) = j := Fin.ext (Nat.add_sub_cancel _ _)
    rw [e, ej, max_le_iff, max_le_iff]
    tauto
  · have hout : ∀ b, ¬((1 ≤ a ∧ a - 1 < 1024) ∧ (1 ≤ b ∧ b - 1 < 1024)) := fun b h => ha h.1
    rw [pad_of_out c _ (hout _), pad_of_out c y (hout _), pad_of_out c y (hout _), pad_of_out c y (hout _)]
    tauto

/-- The same for min, bounded below. -/
theorem le_pad_hpass_min_iff (c : EReal) (y : Fin 1024 → Fin 1024 → EReal) (a : ℕ) (j : Fin 1024) (u : EReal) :
    u ≤ pad c (hpass min c y) a (j.val + 1)
      ↔ u ≤ pad c y a (j.val + 0) ∧ u ≤ pad c y a (j.val + 1) ∧ u ≤ pad c y a (j.val + 2) := by
  have hj := j.isLt
  by_cases ha : 1 ≤ a ∧ a - 1 < 1024
  · rw [pad_of_in c (hpass min c y) ⟨ha, ⟨by omega, by omega⟩⟩]
    rw [pad_of_in c y (a := a) (b := j.val + 1) ⟨ha, ⟨by omega, by omega⟩⟩]
    unfold hpass
    have e : (⟨a - 1, ha.2⟩ : Fin 1024).val + 1 = a := by show a - 1 + 1 = a; omega
    have ej : (⟨j.val + 1 - 1, by omega⟩ : Fin 1024) = j := Fin.ext (Nat.add_sub_cancel _ _)
    rw [e, ej, le_min_iff, le_min_iff]
    tauto
  · have hout : ∀ b, ¬((1 ≤ a ∧ a - 1 < 1024) ∧ (1 ≤ b ∧ b - 1 < 1024)) := fun b h => ha h.1
    rw [pad_of_out c _ (hout _), pad_of_out c y (hout _), pad_of_out c y (hout _), pad_of_out c y (hout _)]
    tauto

/-- The two max passes together are bounded above by `u` exactly when the nine bordered reads of the image are. -/
theorem sep_max_le_iff (c : EReal) (y : Fin 1024 → Fin 1024 → EReal) (i j : Fin 1024) (u : EReal) :
    vpass max c (hpass max c y) i j ≤ u ↔ ∀ di dj : Fin 3, pad c y (i.val + di.val) (j.val + dj.val) ≤ u := by
  unfold vpass
  rw [← pad_inside c (hpass max c y) i j, max_le_iff, max_le_iff,
    pad_hpass_max_le_iff, pad_hpass_max_le_iff, pad_hpass_max_le_iff, forall_fin3]
  simp only [forall_fin3]
  show _ ↔ ((pad c y (i.val + 0) (j.val + 0) ≤ u ∧ pad c y (i.val + 0) (j.val + 1) ≤ u ∧ pad c y (i.val + 0) (j.val + 2) ≤ u)
    ∧ (pad c y (i.val + 1) (j.val + 0) ≤ u ∧ pad c y (i.val + 1) (j.val + 1) ≤ u ∧ pad c y (i.val + 1) (j.val + 2) ≤ u)
    ∧ (pad c y (i.val + 2) (j.val + 0) ≤ u ∧ pad c y (i.val + 2) (j.val + 1) ≤ u ∧ pad c y (i.val + 2) (j.val + 2) ≤ u))
  tauto

/-- The two min passes together are bounded below by `u` exactly when the nine bordered reads of the image are. -/
theorem le_sep_min_iff (c : EReal) (y : Fin 1024 → Fin 1024 → EReal) (i j : Fin 1024) (u : EReal) :
    u ≤ vpass min c (hpass min c y) i j ↔ ∀ di dj : Fin 3, u ≤ pad c y (i.val + di.val) (j.val + dj.val) := by
  unfold vpass
  rw [← pad_inside c (hpass min c y) i j, le_min_iff, le_min_iff,
    le_pad_hpass_min_iff, le_pad_hpass_min_iff, le_pad_hpass_min_iff, forall_fin3]
  simp only [forall_fin3]
  show _ ↔ ((u ≤ pad c y (i.val + 0) (j.val + 0) ∧ u ≤ pad c y (i.val + 0) (j.val + 1) ∧ u ≤ pad c y (i.val + 0) (j.val + 2))
    ∧ (u ≤ pad c y (i.val + 1) (j.val + 0) ∧ u ≤ pad c y (i.val + 1) (j.val + 1) ∧ u ≤ pad c y (i.val + 1) (j.val + 2))
    ∧ (u ≤ pad c y (i.val + 2) (j.val + 0) ∧ u ≤ pad c y (i.val + 2) (j.val + 1) ∧ u ≤ pad c y (i.val + 2) (j.val + 2)))
  tauto

/-! ## The per-pixel loss -/

/-- The 0/1 flag "d > 0" as an extended real. -/
def pos01 (d : EReal) : EReal := (((Ideal.cmp .ogt d 0).toNat : ℝ) : EReal)

/-- The binary cross-entropy of a logit `x` against a 0/1 target `z`, in its stable form. -/
def bce (x z : EReal) : EReal := max x 0 - x * z + Ideal.log1p (Ideal.exp (-(max x (-x))))

/-- The loss of pixel `(i, j)` of an image of logits `x` against the boundary of a mask `g`: the target is 1 where the
    mask's 3 x 3 neighbourhood (separable max with border -1, separable min with border 2) is not constant. -/
def pix (x g : Fin 1024 → Fin 1024 → EReal) (i j : Fin 1024) : EReal :=
  bce (x i j) (pos01 (vpass max (-1) (hpass max (-1) g) i j - vpass min 2 (hpass min 2 g) i j))

end Cert.Spec

end
-- ==== Proof.RefWindow.lean ====
/-
  A 3 x 3 window reduction over the two image axes of a [64, 1, 1024, 1024] array, padded by one on each side of both:
  the result at pixel (i, j) of image n folds the body over the nine positions of the window, reading the initial value
  where a position falls in the padding. For a body and a property that satisfy "the property holds of a combination exactly
  when it holds of both parts" (max with "is at most u", min with "is at least u"), the property holds of the fold exactly
  when it holds of the initial value and of the nine bordered reads of image n around (i, j) — whatever the order of the fold.
-/
import Idealize.ShloMosaic.PureOps
import Idealize.ShloMosaic.Lib.ValueIdx
import proofs.«151914_j52201032516261_1_alg».proof.Proof.Spec

noncomputable section

namespace Cert.RefWindow

open Idealize.ShloMosaic Idealize.ShloMosaic.ValueIdx Cert.Spec

abbrev S4 : Shape := ⟨4, ![64, 1, 1024, 1024]⟩
abbrev S0 : Shape := ⟨0, ![]⟩
abbrev W4 : Shape := ⟨4, ![1, 1, 3, 3]⟩

/-- A left fold of a body that splits a property holds the property exactly when the start and every folded value do. -/
theorem foldl_iff {ι : Type} (P : EReal → Prop) (f : EReal → EReal → EReal) (hf : ∀ a b, P (f a b) ↔ P a ∧ P b)
    (g : ι → EReal) : ∀ (L : List ι) (v : EReal), P (L.foldl (fun r n => f r (g n)) v) ↔ P v ∧ ∀ n ∈ L, P (g n)
  | [], v => by simp
  | a :: L, v => by
    rw [List.foldl_cons, foldl_iff P f hf g L, hf]
    simp only [List.mem_cons, forall_eq_or_imp]
    tauto

/-- Window position `w` of pixel `(i, j)` of image `n` lies inside the image. -/
abbrev Inside (n : Fin 64) (i j : Fin 1024) (w : W4.Idx) (e : (4 : ℕ) = 4) : Prop :=
  ∀ a : Fin 4, (![0, 0, 1, 1] : Fin 4 → ℕ) a ≤ ((ix4 n (0 : Fin 1) i j : S4.Idx) (Fin.cast e a)).val * (![1, 1, 1, 1] : Fin 4 → ℕ) a + (w a).val
    ∧ ((ix4 n (0 : Fin 1) i j : S4.Idx) (Fin.cast e a)).val * (![1, 1, 1, 1] : Fin 4 → ℕ) a + (w a).val - (![0, 0, 1, 1] : Fin 4 → ℕ) a
        < (![64, 1, 1024, 1024] : Fin 4 → ℕ) a

/-- What the window reads at position `w`: the bordered read of image `n` at `(i + w 2, j + w 3)`. -/
theorem win_read (x : S4.Idx → EReal) (v : EReal) (n : Fin 64) (i j : Fin 1024) (w : W4.Idx) (e : (4 : ℕ) = 4)
    [inst : Decidable (Inside n i j w e)] :
    (if hin : Inside n i j w e then
        x (fun a => ⟨((ix4 n (0 : Fin 1) i j : S4.Idx) (Fin.cast e a)).val * (![1, 1, 1, 1] : Fin 4 → ℕ) a + (w a).val
          - (![0, 0, 1, 1] : Fin 4 → ℕ) a, (hin a).2⟩)
      else v)
      = pad v (fun a b => x (ix4 n (0 : Fin 1) a b)) (i.val + (w 2).val) (j.val + (w 3).val) := by
  have hn := n.isLt
  have hi := i.isLt
  have hj := j.isLt
  have h0 : (w 0).val < 1 := (w 0).isLt
  have h1 : (w 1).val < 1 := (w 1).isLt
  by_cases hin' : (1 ≤ i.val + (w 2).val ∧ i.val + (w 2).val - 1 < 1024) ∧ (1 ≤ j.val + (w 3).val ∧ j.val + (w 3).val - 1 < 1024)
  · have H : Inside n i j w e := by
      intro a
      match a with
      | ⟨0, _⟩ => exact (show 0 ≤ n.val * 1 + (w 0).val ∧ n.val * 1 + (w 0).val - 0 < 64 by omega)
      | ⟨1, _⟩ => exact (show 0 ≤ 0 * 1 + (w 1).val ∧ 0 * 1 + (w 1).val - 0 < 1 by omega)
      | ⟨2, _⟩ => exact (show 1 ≤ i.val * 1 + (w 2).val ∧ i.val * 1 + (w 2).val - 1 < 1024 by omega)
      | ⟨3, _⟩ => exact (show 1 ≤ j.val * 1 + (w 3).val ∧ j.val * 1 + (w 3).val - 1 < 1024 by omega)
    rw [dif_pos H, pad_of_in _ _ hin']
    beta_reduce
    refine congrArg x (funext fun a => ?_)
    match a with
    | ⟨0, _⟩ => exact Fin.ext (show n.val * 1 + (w 0).val - 0 = n.val by omega)
    | ⟨1, _⟩ => exact Fin.ext (show 0 * 1 + (w 1).val - 0 = 0 by omega)
    | ⟨2, _⟩ => exact Fin.ext (show i.val * 1 + (w 2).val - 1 = i.val + (w 2).val - 1 by omega)
    | ⟨3, _⟩ => exact Fin.ext (show j.val * 1 + (w 3).val - 1 = j.val + (w 3).val - 1 by omega)
  · have H : ¬Inside n i j w e := fun H => by
      have H2 := H ⟨2, by decide⟩
      have H3 := H ⟨3, by decide⟩
      change 1 ≤ i.val * 1 + (w 2).val ∧ i.val * 1 + (w 2).val - 1 < 1024 at H2
      change 1 ≤ j.val * 1 + (w 3).val ∧ j.val * 1 + (w 3).val - 1 < 1024 at H3
      exact hin' ⟨by omega, by omega⟩
    rw [dif_neg H, pad_of_out _ _ hin']

/-- The window reduction at pixel `(i, j)` of image `n`, through a property its body splits. -/
theorem reduceWindow_iff (P : EReal → Prop) (f : EReal → EReal → EReal) (hf : ∀ a b, P (f a b) ↔ P a ∧ P b)
    (x : S4.Idx → EReal) (init : S0.Idx → EReal)
    (h : S4.ReduceWindows (![1, 1, 3, 3] : Fin 4 → Nat) ![1, 1, 1, 1] ![0, 0, 1, 1] ![0, 0, 1, 1] S4) (hu : 0 < S0.numel)
    (n : Fin 64) (i j : Fin 1024) :
    P (Host.reduceWindow f ![1, 1, 3, 3] ![1, 1, 1, 1] ![0, 0, 1, 1] ![0, 0, 1, 1] x init h hu (ix4 n (0 : Fin 1) i j))
      ↔ P (init (Shape.Idx.first hu)) ∧ ∀ di dj : Fin 3,
          P (pad (init (Shape.Idx.first hu)) (fun a b => x (ix4 n (0 : Fin 1) a b)) (i.val + di.val) (j.val + dj.val)) := by
  unfold Host.reduceWindow
  dsimp only
  refine (foldl_iff P f hf _ _ _).trans (and_congr Iff.rfl ?_)
  constructor
  · intro H di dj
    have := H (W4.rowMajor (ix4 (0 : Fin 1) (0 : Fin 1) di dj)) (List.mem_finRange _)
    simp only [Equiv.symm_apply_apply] at this
    rw [win_read x _ n i j (ix4 (0 : Fin 1) (0 : Fin 1) di dj) _] at this
    exact this
  · intro H k _
    rw [win_read x _ n i j (W4.rowMajor.symm k) _]
    exact H _ _

end Cert.RefWindow

end
-- ==== Proof.Images.lean ====
/-
  The two argument arrays as 64 images each, the total loss over all pixels of all images, and the mean.
  An index of a [64, 1, 1024, 1024] array is an image number, a row and a column (the channel axis has one coordinate),
  so a sum over all its indices is the triple sum over images, rows and columns.
-/
import Idealize.ShloMosaic.Lib.ValueIdx
import proofs.«151914_j52201032516261_1_alg».proof.Proof.Spec

noncomputable section

namespace Cert.Spec

open Idealize.ShloMosaic Idealize.ShloMosaic.ValueIdx

abbrev SArg : Shape := ⟨4, ![64, 1, 1024, 1024]⟩

/-- Image `n` of a float argument. -/
def imgF (X : SArg.Idx → EReal) (n : Fin 64) : Fin 1024 → Fin 1024 → EReal := fun a b => X (ix4 n (0 : Fin 1) a b)

/-- Image `n` of an integer argument, each entry read as a signed integer. -/
def imgI (X : SArg.Idx → BitVec 32) (n : Fin 64) : Fin 1024 → Fin 1024 → EReal :=
  fun a b => (((X (ix4 n (0 : Fin 1) a b)).toInt : ℝ) : EReal)

/-- The loss summed over every pixel of every image. -/
def total (x g : Fin 64 → Fin 1024 → Fin 1024 → EReal) : EReal :=
  ∑ n : Fin 64, ∑ i : Fin 1024, ∑ j : Fin 1024, pix (x n) (g n) i j

/-- The mean loss: the total from zero, divided by the number of pixels, 2^26. -/
def result (x g : Fin 64 → Fin 1024 → Fin 1024 → EReal) : EReal :=
  Ideal.div (0 + total x g) (Ideal.ofBits .f32 0x4C800000#32)

/-- An index of the argument's shape is an image number, a row and a column. -/
def idxEquiv4 : SArg.Idx ≃ Fin 64 × Fin 1024 × Fin 1024 where
  toFun J := (J 0, J 2, J 3)
  invFun p := ix4 p.1 (0 : Fin 1) p.2.1 p.2.2
  left_inv J := by
    funext a
    match a with
    | ⟨0, _⟩ => rfl
    | ⟨1, _⟩ => exact Fin.ext (by have h : (J 1).val < 1 := (J 1).isLt; show (0 : ℕ) = (J 1).val; omega)
    | ⟨2, _⟩ => rfl
    | ⟨3, _⟩ => rfl
  right_inv _ := rfl

/-- A sum over all indices of the argument's shape is the triple sum over images, rows and columns. -/
theorem sum_idx4 {M : Type*} [AddCommMonoid M] (f : SArg.Idx → M) :
    ∑ J, f J = ∑ n : Fin 64, ∑ i : Fin 1024, ∑ j : Fin 1024, f (ix4 n (0 : Fin 1) i j) := by
  rw [← Equiv.sum_comp idxEquiv4.symm f, Fintype.sum_prod_type]
  refine Finset.sum_congr rfl fun n _ => ?_
  rw [Fintype.sum_prod_type]
  rfl

end Cert.Spec

end
-- ==== Proof.Consts.lean ====
/-
  The float literals of the two programs as extended reals: the two infinities (the reference's window borders), minus one
  and two (the kernel's window borders). Zero and one are in the library.
-/
import Idealize.ShloMosaic.PureOps.Ideal.Laws

noncomputable section

namespace Cert.Consts

open Idealize.ShloMosaic

/-- The f32 pattern of minus infinity. -/
theorem ofBits_neg_inf : Ideal.ofBits .f32 0xFF800000#32 = ⊥ := by simp [Ideal.ofBits, Ideal.ieee]

/-- The f32 pattern of plus infinity. -/
theorem ofBits_pos_inf : Ideal.ofBits .f32 0x7F800000#32 = ⊤ := by simp [Ideal.ofBits, Ideal.ieee]

/-- The f32 pattern `0xBF800000` is minus one. -/
theorem ofBits_neg_one : Ideal.ofBits .f32 0xBF800000#32 = (-1 : EReal) := by
  rw [show (-1 : EReal) = ((-1 : ℝ) : EReal) by rw [EReal.coe_neg, EReal.coe_one]]
  simp [Ideal.ofBits, Ideal.ieee, -EReal.coe_mul, -EReal.coe_neg]; norm_num

/-- The f32 pattern `0x40000000` is two. -/
theorem ofBits_two : Ideal.ofBits .f32 0x40000000#32 = (2 : EReal) := by
  rw [show (2 : EReal) = ((2 : ℝ) : EReal) by norm_cast]
  simp [Ideal.ofBits, Ideal.ieee, -EReal.coe_mul]; norm_num

/-- An integer that is 0 or 1, as an extended real, lies between minus one and two. -/
theorem neg_one_le_of_01 {k : ℤ} (h : k = 0 ∨ k = 1) : (-1 : EReal) ≤ ((k : ℝ) : EReal) := by
  rw [show (-1 : EReal) = ((-1 : ℝ) : EReal) by rw [EReal.coe_neg, EReal.coe_one]]
  rcases h with h | h <;> subst h <;> exact EReal.coe_le_coe_iff.mpr (by norm_num)

theorem le_two_of_01 {k : ℤ} (h : k = 0 ∨ k = 1) : ((k : ℝ) : EReal) ≤ (2 : EReal) := by
  rw [show (2 : EReal) = ((2 : ℝ) : EReal) by norm_cast]
  rcases h with h | h <;> subst h <;> exact EReal.coe_le_coe_iff.mpr (by norm_num)

end Cert.Consts

end
-- ==== Proof.RefValue.lean ====
/-
  The reference's result is the mean loss of the specification.

  Its per-pixel loss array holds, at pixel (i, j) of image n, the cross-entropy of the logit against the flag
  "window maximum - window minimum > 0", the windows 3 x 3 with borders -inf and +inf. On a mask whose entries are 0 or 1
  (so between -1 and 2) the window maximum is the separable max filter with border -1 and the window minimum the separable
  min filter with border 2: each pair is characterised by the same bounds (the nine bordered reads; the border never
  decides). The sum over every index of the loss array is then the total over images, rows and columns.
-/
import proofs.«151914_j52201032516261_1_alg».proof.Proof.RefRun
import proofs.«151914_j52201032516261_1_alg».proof.Proof.RefWindow
import proofs.«151914_j52201032516261_1_alg».proof.Proof.Images
import proofs.«151914_j52201032516261_1_alg».proof.Proof.Consts
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx Cert.Spec

/-- The reference's per-pixel loss array, as its operations compose it from the two arguments. -/
def refLoss (x0 : FVec Ideal S64x1x1024x1024 .f32) (x1 : IVec S64x1x1024x1024 32) : FVec Ideal S64x1x1024x1024 .f32 :=
  addf (subf (maximumf x0 (broadcastInDim S64x1x1024x1024 ![] bcast_S_S64x1x1024x1024 (constant S_ .f32 0x00000000#32))) (mulf x0 (uitofp .f32 (cmpf .ogt (subf (Host.reduceWindow FloatOps.maximumf ![1, 1, 3, 3] ![1, 1, 1, 1] ![0, 0, 1, 1] ![0, 0, 1, 1] (sitofp (F := Ideal) .f32 x1) (broadcastInDim S_ ![] bcast_S_S_ (constant S_ .f32 0xFF800000#32)) reduceWindows_S64x1x1024x1024_S64x1x1024x1024_w1s1p0_0_w1s1p0_0_w3s1p1_1_w3s1p1_1 h_S_) (Host.reduceWindow FloatOps.minimumf ![1, 1, 3, 3] ![1, 1, 1, 1] ![0, 0, 1, 1] ![0, 0, 1, 1] (sitofp (F := Ideal) .f32 x1) (broadcastInDim S_ ![] bcast_S_S_ (constant S_ .f32 0x7F800000#32)) reduceWindows_S64x1x1024x1024_S64x1x1024x1024_w1s1p0_0_w1s1p0_0_w3s1p1_1_w3s1p1_1 h_S_)) (broadcastInDim S64x1x1024x1024 ![] bcast_S_S64x1x1024x1024 (constant S_ .f32 0x00000000#32)))))) (Host.log1p (Host.exp (Host.negf (Host.absf x0))))

/-- The window maximum of the mask, border -inf, is the separable max filter with border -1. -/
theorem refMax_eq (x1 : IVec S64x1x1024x1024 32) (h01 : ∀ J, (x1 J).toInt = 0 ∨ (x1 J).toInt = 1)
    (n : Fin 64) (i j : Fin 1024) :
    Host.reduceWindow FloatOps.maximumf ![1, 1, 3, 3] ![1, 1, 1, 1] ![0, 0, 1, 1] ![0, 0, 1, 1] (sitofp (F := Ideal) .f32 x1) (broadcastInDim S_ ![] bcast_S_S_ (constant S_ .f32 0xFF800000#32)) reduceWindows_S64x1x1024x1024_S64x1x1024x1024_w1s1p0_0_w1s1p0_0_w3s1p1_1_w3s1p1_1 h_S_ (ix4 n (0 : Fin 1) i j)
      = vpass max (-1) (hpass max (-1) (imgI x1 n)) i j := by
  refine eq_of_forall_ge_iff fun u => ?_
  have hinit : (broadcastInDim S_ ![] bcast_S_S_ (constant (F := Ideal) S_ .f32 0xFF800000#32)) (Shape.Idx.first h_S_) = ⊥ :=
    Cert.Consts.ofBits_neg_inf
  have h1 := Cert.RefWindow.reduceWindow_iff (fun v => v ≤ u) (FloatOps.maximumf (F := Ideal) (φ := .f32))
    (fun a b => max_le_iff) (sitofp (F := Ideal) .f32 x1)
    (broadcastInDim S_ ![] bcast_S_S_ (constant (F := Ideal) S_ .f32 0xFF800000#32)) reduceWindows_S64x1x1024x1024_S64x1x1024x1024_w1s1p0_0_w1s1p0_0_w3s1p1_1_w3s1p1_1 h_S_ n i j
  have h2 := (sep_max_le_iff (-1) (imgI x1 n) i j u).trans
    (pad_le_iff (-1) (imgI x1 n) (fun a b => Cert.Consts.neg_one_le_of_01 (h01 _)) i j u)
  refine h1.trans (Iff.trans ⟨fun h => ?_, fun h => ⟨hinit.le.trans bot_le, ?_⟩⟩ h2.symm)
  · have h' := h.2
    rw [hinit] at h'
    exact h'
  · rw [hinit]
    exact h

/-- The window minimum of the mask, border +inf, is the separable min filter with border 2. -/
theorem refMin_eq (x1 : IVec S64x1x1024x1024 32) (h01 : ∀ J, (x1 J).toInt = 0 ∨ (x1 J).toInt = 1)
    (n : Fin 64) (i j : Fin 1024) :
    Host.reduceWindow FloatOps.minimumf ![1, 1, 3, 3] ![1, 1, 1, 1] ![0, 0, 1, 1] ![0, 0, 1, 1] (sitofp (F := Ideal) .f32 x1) (broadcastInDim S_ ![] bcast_S_S_ (constant S_ .f32 0x7F800000#32)) reduceWindows_S64x1x1024x1024_S64x1x1024x1024_w1s1p0_0_w1s1p0_0_w3s1p1_1_w3s1p1_1 h_S_ (ix4 n (0 : Fin 1) i j)
      = vpass min 2 (hpass min 2 (imgI x1 n)) i j := by
  refine eq_of_forall_le_iff fun u => ?_
  have hinit : (broadcastInDim S_ ![] bcast_S_S_ (constant (F := Ideal) S_ .f32 0x7F800000#32)) (Shape.Idx.first h_S_) = ⊤ :=
    Cert.Consts.ofBits_pos_inf
  have h1 := Cert.RefWindow.reduceWindow_iff (fun v => u ≤ v) (FloatOps.minimumf (F := Ideal) (φ := .f32))
    (fun a b => le_min_iff) (sitofp (F := Ideal) .f32 x1)
    (broadcastInDim S_ ![] bcast_S_S_ (constant (F := Ideal) S_ .f32 0x7F800000#32)) reduceWindows_S64x1x1024x1024_S64x1x1024x1024_w1s1p0_0_w1s1p0_0_w3s1p1_1_w3s1p1_1 h_S_ n i j
  have h2 := (le_sep_min_iff 2 (imgI x1 n) i j u).trans
    (le_pad_iff 2 (imgI x1 n) (fun a b => Cert.Consts.le_two_of_01 (h01 _)) i j u)
  refine h1.trans (Iff.trans ⟨fun h => ?_, fun h => ⟨le_top.trans hinit.ge, ?_⟩⟩ h2.symm)
  · have h' := h.2
    rw [hinit] at h'
    exact h'
  · rw [hinit]
    exact h

/-- The reference's loss at pixel `(i, j)` of image `n` is the specification's. -/
theorem refLoss_apply (x0 : FVec Ideal S64x1x1024x1024 .f32) (x1 : IVec S64x1x1024x1024 32)
    (h01 : ∀ J, (x1 J).toInt = 0 ∨ (x1 J).toInt = 1) (n : Fin 64) (i j : Fin 1024) :
    refLoss x0 x1 (ix4 n (0 : Fin 1) i j) = pix (imgF x0 n) (imgI x1 n) i j := by
  unfold pix bce pos01
  rw [← refMax_eq x1 h01 n i j, ← refMin_eq x1 h01 n i j, ← Ideal.ofBits_zero_f32]
  rfl

/-- The reference's result: the mean loss. -/
theorem ref_term_eq (x0 : FVec Ideal S64x1x1024x1024 .f32) (x1 : IVec S64x1x1024x1024 32)
    (h01 : ∀ J, (x1 J).toInt = 0 ∨ (x1 J).toInt = 1) :
    Host.divf (Host.reduceAdd (addf (subf (maximumf x0 (broadcastInDim S64x1x1024x1024 ![] bcast_S_S64x1x1024x1024 (constant S_ .f32 0x00000000#32))) (mulf x0 (uitofp .f32 (cmpf .ogt (subf (Host.reduceWindow FloatOps.maximumf ![1, 1, 3, 3] ![1, 1, 1, 1] ![0, 0, 1, 1] ![0, 0, 1, 1] (sitofp (F := Ideal) .f32 x1) (broadcastInDim S_ ![] bcast_S_S_ (constant S_ .f32 0xFF800000#32)) reduceWindows_S64x1x1024x1024_S64x1x1024x1024_w1s1p0_0_w1s1p0_0_w3s1p1_1_w3s1p1_1 h_S_) (Host.reduceWindow FloatOps.minimumf ![1, 1, 3, 3] ![1, 1, 1, 1] ![0, 0, 1, 1] ![0, 0, 1, 1] (sitofp (F := Ideal) .f32 x1) (broadcastInDim S_ ![] bcast_S_S_ (constant S_ .f32 0x7F800000#32)) reduceWindows_S64x1x1024x1024_S64x1x1024x1024_w1s1p0_0_w1s1p0_0_w3s1p1_1_w3s1p1_1 h_S_)) (broadcastInDim S64x1x1024x1024 ![] bcast_S_S64x1x1024x1024 (constant S_ .f32 0x00000000#32)))))) (Host.log1p (Host.exp (Host.negf (Host.absf x0))))) (constant S_ .f32 0x00000000#32) reducesTo_S64x1x1024x1024_S_d0_1_2_3 h_S_) (constant S_ .f32 0x4C800000#32)
      = fun _ => result (imgF x0) (imgI x1) := by
  funext i0
  show Ideal.div (Host.reduceAdd (F := Ideal) (refLoss x0 x1) (constant S_ .f32 0x00000000#32) reducesTo_S64x1x1024x1024_S_d0_1_2_3 h_S_ i0)
    (Ideal.ofBits .f32 0x4C800000#32) = _
  have hsum : Host.reduceAdd (F := Ideal) (refLoss x0 x1) (constant S_ .f32 0x00000000#32) reducesTo_S64x1x1024x1024_S_d0_1_2_3 h_S_ i0
      = 0 + total (imgF x0) (imgI x1) := by
    have hpt : ∀ J : S64x1x1024x1024.Idx, refLoss x0 x1 J = pix (imgF x0 (J 0)) (imgI x1 (J 0)) (J 2) (J 3) := fun J => by
      have e : J = ix4 (J 0) (0 : Fin 1) (J 2) (J 3) := by
        funext a
        match a with
        | ⟨0, _⟩ => rfl
        | ⟨1, _⟩ => exact Fin.ext (by have h : (J 1).val < 1 := (J 1).isLt; show (J 1).val = 0; omega)
        | ⟨2, _⟩ => rfl
        | ⟨3, _⟩ => rfl
      conv_lhs => rw [e]
      exact refLoss_apply x0 x1 h01 _ _ _
    generalize refLoss x0 x1 = y0 at hpt
    simp only [Host.reduceAdd, Ideal.hostReduceAdd_def]
    rw [Ideal.hostReduceAdd_total reducesTo_S64x1x1024x1024_S_d0_1_2_3 (fun b => b.elim0) y0 _ i0]
    show Ideal.ofBits .f32 0x00000000#32 + _ = _
    rw [Ideal.ofBits_zero_f32, sum_idx4 y0]
    refine congrArg (fun s => (0 : EReal) + s) ?_
    unfold total
    refine Finset.sum_congr rfl fun n _ => Finset.sum_congr rfl fun i _ => Finset.sum_congr rfl fun j _ => ?_
    exact hpt _
  rw [hsum]
  rfl

end Cert.ReferenceIdeal.RefValue

end
-- ==== Proof.KernelRunPieces.lean ====
/-
  The kernel's three control cases, read as values.  At a grid point (core, l) the body keeps a [1,1] cell
  between points: at l = 0 the cell is reset to zero before use; at every point the cell receives
  "cell + (the point's scalar loss of its two input images)"; at l = 31 the cell just written is spread over
  the core's [1,8,128] output block.  Each lemma says what one case leaves in the cell (or in the output block)
  as a function of the two input blocks and of what the cell held before.
-/
import proofs.«151914_j52201032516261_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RunValue

open Cert.KernelIdeal Cert.KernelIdeal.Gen

variable {F : FTy → Type} [FloatOps F]

/-- The zero offsets of a whole-block access, in each rank met here. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A point that is neither first nor last in its row of the grid: the carried [1,1] cell ends at the
    point's increment of what the point before left in it (`xs0`), the increment computed from the two
    input blocks. -/
theorem sout_B (c : Dev nD) (i : grid0.Coords) (arg2 : Memref sig .tc .vmem S1x1x1024x1024 .f32) (harg2 : arg2.IsWhole) (arg3 : Memref sig .tc .vmem S1x1x1024x1024 .i32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : ¬cond0_1 i)
    (x0 : Vec F S1x1x1024x1024 .f32) (x1 : Vec F S1x1x1024x1024 .i32) (xs0 : Vec F S1x1 .f32) :
    sout0_B_0 c i arg2 harg2 arg3 harg3 arg4 harg4 arg5 harg5 hc0 hc1 x0 x1 xs0
      = k0_pay1 (k0_pay4 x0) (k0_pay6 x1) (k0_pay7 x1) (k0_pay8 x1) 1023#32 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S1x1) hz2, View.ld_unit_zero (S := S1x1x1024x1024) hz4]

/-- The first point of a row: the cell is first set to zero, and the same increment is added to that zero. -/
theorem sout_A (c : Dev nD) (i : grid0.Coords) (arg2 : Memref sig .tc .vmem S1x1x1024x1024 .f32) (harg2 : arg2.IsWhole) (arg3 : Memref sig .tc .vmem S1x1x1024x1024 .i32) (harg3 : arg3.IsWhole) (arg4 : Memref sig .tc .vmem S1x8x128 .f32) (harg4 : arg4.IsWhole) (arg5 : Memref sig .tc .vmem S1x1 .f32) (harg5 : arg5.IsWhole) (hc0 : cond0_0 i) (hc1 : ¬cond0_1 i)
    (x0 : Vec F S1x1x1024x1024 .f32) (x1 : Vec F S1x1x1024x1024 .i32) :
    sout0_A_0 c i arg2 harg2 arg3 harg3 arg4 harg4 arg5 harg5 hc0 hc1 x0 x1
      = k0_pay1 (k0_pay4 x0) (k0_pay6 x1) (k0_pay7 x1) (k0_pay8 x1) 1023#32 (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg5.read_unread, View.ld_unit_zero (S := S1x1) hz2, View.ld_unit_zero (S := S1x1x1024x1024) hz4]

/-- The last point of a row: the cell is incremented as at an inner point, -/
theorem sout_C (c : Dev nD) (i : grid0.Coords) (arg2 : Memref sig .tc .vmem S1x1x1024x1024 .f32) (harg2 : arg2.IsWhole) (arg3 : Memref sig .tc .vmem S1x1x1024x1024 .i32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 : Vec F S1x1x1024x1024 .f32) (x1 : Vec F S1x1x1024x1024 .i32) (xs0 : Vec F S1x1 .f32) :
    sout0_C_0 c i arg2 harg2 arg3 harg3 arg4 harg4 arg5 harg5 hc0 hc1 x0 x1 xs0
      = k0_pay1 (k0_pay4 x0) (k0_pay6 x1) (k0_pay7 x1) (k0_pay8 x1) 1023#32 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x1) hz2, View.ld_unit_zero (S := S1x1x1024x1024) hz4]

/-- and the output block is the cell just written, spread over the block. -/
theorem out_C (c : Dev nD) (i : grid0.Coords) (arg2 : Memref sig .tc .vmem S1x1x1024x1024 .f32) (harg2 : arg2.IsWhole) (arg3 : Memref sig .tc .vmem S1x1x1024x1024 .i32) (harg3 : arg3.IsWhole) (arg4 : Memref sig .tc .vmem S1x8x128 .f32) (harg4 : arg4.IsWhole) (arg5 : Memref sig .tc .vmem S1x1 .f32) (harg5 : arg5.IsWhole) (hc0 : ¬cond0_0 i) (hc1 : cond0_1 i)
    (x0 : Vec F S1x1x1024x1024 .f32) (x1 : Vec F S1x1x1024x1024 .i32) (xs0 : Vec F S1x1 .f32) :
    out0_C_2 c i arg2 harg2 arg3 harg3 arg4 harg4 arg5 harg5 hc0 hc1 x0 x1 xs0
      = k0_pay2 (k0_pay1 (k0_pay4 x0) (k0_pay6 x1) (k0_pay7 x1) (k0_pay8 x1) 1023#32 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread, View.readCov_unit_zero (S := S1x1) _ hz2, View.ld_unit_zero (S := S1x1) hz2, View.ld_unit_zero (S := S1x1x1024x1024) hz4]

end Cert.KernelIdeal.RunValue
end
-- ==== Proof.KernelRunAcc.lean ====
/-
  The carried cell over the grid positions n = 32 * core + l, as a recursion: at the first point of a core's row
  the cell is the point's increment of zero; at every other point it is the point's increment of what the point
  before left; and at the last point of a row the output block is the cell, spread over the block.
-/
import proofs.«151914_j52201032516261_1_alg».proof.Proof.KernelRunPieces
import Idealize.ShloMosaic.PureOps.Ideal

noncomputable section

open Idealize.ShloMosaic Idealize.ShloMosaic.TcCoe Idealize.SL.Sem
open Idealize.ShloMosaic.Pipeline (Dat)

namespace Cert.KernelIdeal.RunValue

open Cert.KernelIdeal Cert.KernelIdeal.Gen

variable (m : (ℓ : Loc nD τ sig) → Buf (Elt Ideal) ℓ) (ρ : Dev nD → PrngReg)

/-- First point of a row (n ≡ 0 mod 32): the cell restarts from zero. -/
theorem acc_first (c : Dev nD) (n : ℕ) (hn : n < cfg0.N) (h0 : n % 32 = 0) :
    (outsAt0 m c n hn).2 = k0_pay1 (k0_pay4 (iblk m c 0 ⟨n, hn⟩)) (k0_pay6 (iblk m c 1 ⟨n, hn⟩)) (k0_pay7 (iblk m c 1 ⟨n, hn⟩)) (k0_pay8 (iblk m c 1 ⟨n, hn⟩)) 1023#32 (k0_pay3 (F := Ideal)) := by
  have h1 : ¬ n % 32 = 31 := by omega
  exact (congrArg Prod.snd (outsAt0_A m c ⟨n, hn⟩ h0 h1)).trans
    (sout_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩))

/-- Any other point: the cell is the point's increment of what the point before left. -/
theorem acc_next (c : Dev nD) (n : ℕ) (hn : n + 1 < cfg0.N) (h0 : (n + 1) % 32 ≠ 0) :
    (outsAt0 m c (n + 1) hn).2 = k0_pay1 (k0_pay4 (iblk m c 0 ⟨n + 1, hn⟩)) (k0_pay6 (iblk m c 1 ⟨n + 1, hn⟩)) (k0_pay7 (iblk m c 1 ⟨n + 1, hn⟩)) (k0_pay8 (iblk m c 1 ⟨n + 1, hn⟩)) 1023#32 (outsAt0 m c n (Nat.lt_of_succ_lt hn)).2 := by
  by_cases h1 : (n + 1) % 32 = 31
  · exact (congrArg Prod.snd (outsAt0_C m c ⟨n + 1, hn⟩ h0 h1)).trans
      (sout_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c n (Nat.lt_of_succ_lt hn)).2)
  · exact (congrArg Prod.snd (outsAt0_B m c ⟨n + 1, hn⟩ h0 h1)).trans
      (sout_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 m c n (Nat.lt_of_succ_lt hn)).2)

/-- Last point of a row (n ≡ 31 mod 32): the output block is the cell just written, spread over the block. -/
theorem out_last (c : Dev nD) (n : ℕ) (hn : n < cfg0.N) (h1 : n % 32 = 31) :
    (outsAt0 m c n hn).1 = k0_pay2 (outsAt0 m c n hn).2 := by
  have h0 : ¬ n % 32 = 0 := by omega
  have e := outsAt0_C m c ⟨n, hn⟩ h0 h1
  have e1 := (congrArg Prod.fst e).trans
    (out_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (outsAt0 m c (n - 1) (Nat.lt_of_le_of_lt (Nat.sub_le _ _) hn)).2)
  have e2 := (congrArg Prod.snd e).trans
    (sout_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (outsAt0 m c (n - 1) (Nat.lt_of_le_of_lt (Nat.sub_le _ _) hn)).2)
  exact e1.trans (congrArg k0_pay2 e2.symm)

end Cert.KernelIdeal.RunValue
end
-- ==== Proof.KernelRunOut.lean ====
/-
  The kernel's output array after the region.  Core k's [1,8,128] block is written back once, after the last
  point of its row (grid position 32 k + 31), and holds the carried cell of that point spread over the block; the
  two blocks tile the [2,8,128] array.  So entry (k, a, b) of the array is the cell after position 32 k + 31.
-/
import proofs.«151914_j52201032516261_1_alg».proof.Proof.KernelRunAcc
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.RunValue

open Cert.KernelIdeal Cert.KernelIdeal.Gen

variable (m : (ℓ : Loc nD τ sig) → Buf (Elt Ideal) ℓ) (ρ : Dev nD → PrngReg)

open ValueIdx

/-- The spread of a [1,1] cell over a [1,8,128] block reads the cell at every index. -/
theorem pay2_apply (v : Vec Ideal S1x1 .f32) (u : Fin 1) (a : Fin 8) (b : Fin 128) :
    k0_pay2 v (ix3 u a b) = v (ix2 (0 : Fin 1) (0 : Fin 1)) := by
  unfold k0_pay2
  refine (shapeCast_ab_1ab_apply _ _ u a b).trans ?_
  refine (broadcastTo_apply _ _ (ix2 a b) (ix2 (0 : Fin 1) (0 : Fin 1)) ?_).trans ?_
  · intro x; fin_cases x <;> rfl
  · rw [shapeCast_self]

/-- Where the output window's index map sends a grid position: block n / 32 along the core axis, block 0 along the
    others — decided over the 64 positions. -/
theorem idx_out : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- The last position of core k's row is a grid position. -/
theorem row_last_lt (k : ℕ) (hk : k < 2) : k * 32 + 31 < cfg0.N := by
  rw [show cfg0.N = 64 from N_0]; omega

/-- The contents after a position depend on the position only as a number. -/
theorem outsAt0_congr (c : Dev nD) {n n' : ℕ} (e : n = n') (h : n < cfg0.N) (h' : n' < cfg0.N) :
    outsAt0 m c n h = outsAt0 m c n' h' := by subst e; rfl

/-- The output array: entry (k, a, b) is the carried cell after the last position of core k's row. -/
def outArr (c : Dev nD) : FVec Ideal S2x8x128 .f32 := fun j =>
  (outsAt0 m c ((j 0).val * 32 + 31) (row_last_lt _ (j 0).isLt)).2 (ix2 (0 : Fin 1) (0 : Fin 1))

theorem outArr_apply (c : Dev nD) (j : S2x8x128.Idx) :
    outArr m c j = (outsAt0 m c ((j 0).val * 32 + 31) (row_last_lt _ (j 0).isLt)).2 (ix2 (0 : Fin 1) (0 : Fin 1)) := rfl

/-- What a position that writes the block back writes is its block of `outArr`. -/
theorem flushed_eq (c : Dev nD) (t : Fin cfg0.N) (hf : (cfg0.win 2).flush t = true) :
    (dats m 0 c).flushed 2 t = ((cfg0.win 2).blk t).view.read (Elt Ideal) (outArr m c) := by
  have h31 : t.val % 32 = 31 := (flush0_2 t).mp hf
  have hN : t.val < 64 := lt_of_lt_of_eq t.isLt (show cfg0.N = 64 from N_0)
  obtain ⟨i0, i1, i2⟩ := idx_out t
  show (cfg0.win 2).cut (grid0.coords t) ((dats m 0 c).after 2 t) = _
  rw [after0_2, out_last m c t.val t.isLt h31]
  refine funext fun (y : S1x8x128.Idx) => ?_
  rw [View.read_apply]
  show k0_pay2 (outsAt0 m c t.val t.isLt).2 y = outArr m c (((cfg0.win 2).blk t).view.emb y)
  obtain ⟨u, a, b, rfl⟩ : ∃ (u : Fin 1) (a : Fin 8) (b : Fin 128), y = ix3 u a b := ⟨y 0, y 1, y 2, eq_ix3 y⟩
  rw [pay2_apply, outArr_apply]
  have e : ((((cfg0.win 2).blk t).view.emb (ix3 u a b)) 0).val * 32 + 31 = t.val := by
    show (win0_2.index t 0 * 1 + 1 * u.val) * 32 + 31 = t.val
    rw [i0]; omega
  rw [outsAt0_congr m c e _ t.isLt]

/-- An index of the array is in position `t`'s block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- Every entry (k, a, b) of the array lies in the block written back after position 32 k + 31. -/
theorem covered (i : S2x8x128.Idx) :
    ∃ t : Fin cfg0.N, (cfg0.win 2).flush t = true ∧ i ∈ ((cfg0.win 2).blk t).view.set := by
  have h0 : (i 0 : Nat) < 2 := (i 0).isLt
  have h1 : (i 1 : Nat) < 8 := (i 1).isLt
  have h2 : (i 2 : Nat) < 128 := (i 2).isLt
  obtain ⟨e0, e1, e2⟩ := idx_out ⟨(i 0).val * 32 + 31, row_last_lt _ h0⟩
  have e0' : win0_2.index ⟨(i 0).val * 32 + 31, row_last_lt _ h0⟩ 0 = ((i 0).val * 32 + 31) / 32 := e0
  refine ⟨⟨(i 0).val * 32 + 31, row_last_lt _ h0⟩, (flush0_2 _).mpr (by show ((i 0).val * 32 + 31) % 32 = 31; omega), ?_⟩
  rw [mem_blk]
  intro a
  match a with
  | ⟨0, _⟩ =>
    show win0_2.index ⟨(i 0).val * 32 + 31, row_last_lt _ h0⟩ 0 * 1 ≤ (i 0).val ∧ (i 0).val < win0_2.index ⟨(i 0).val * 32 + 31, row_last_lt _ h0⟩ 0 * 1 + 1
    rw [e0']; omega
  | ⟨1, _⟩ =>
    show win0_2.index ⟨(i 0).val * 32 + 31, row_last_lt _ h0⟩ 1 * 8 ≤ (i 1).val ∧ (i 1).val < win0_2.index ⟨(i 0).val * 32 + 31, row_last_lt _ h0⟩ 1 * 8 + 8
    rw [e1]; omega
  | ⟨2, _⟩ =>
    show win0_2.index ⟨(i 0).val * 32 + 31, row_last_lt _ h0⟩ 2 * 128 ≤ (i 2).val ∧ (i 2).val < win0_2.index ⟨(i 0).val * 32 + 31, row_last_lt _ h0⟩ 2 * 128 + 128
    rw [e2]; omega

/-- So after the region the output array holds `outArr`. -/
theorem final_out (c : Dev nD) : (dats m 0 c).arrAt 2 cfg0.N = outArr m c :=
  (dats m 0 c).arrAt_eq_of_cover 2 (outArr m c) (flushed_eq m c) covered

end Cert.KernelIdeal.RunValue
end
-- ==== Proof.KernelRunRun.lean ====
/-
  The program's run, read as a value: after the region the host takes entry (k, 0, 0) of each core's output block,
  adds the two from zero and divides by a constant; the region's output array is `outArr`, so the result is that
  tail of `outArr`, and the argument arrays end as they began.
-/
import proofs.«151914_j52201032516261_1_alg».proof.Proof.KernelRunOut
import Idealize.ShloMosaic.Lib.Pipeline.FrameSuffix
import Idealize.ShloMosaic.Lib.StableHlo.Run

noncomputable section

open Idealize.ShloMosaic Idealize.ShloMosaic.TcCoe Idealize.SL.Sem
open Idealize.ShloMosaic.Pipeline (Dat)

namespace Cert.KernelIdeal.RunValue

open Cert.KernelIdeal Cert.KernelIdeal.Gen

variable (m : (ℓ : Loc nD τ sig) → Buf (Elt Ideal) ℓ) (ρ : Dev nD → PrngReg)

/-- The host's four operations after the region, applied to the region's output array `o`: entry (k, 0, 0) of each
    core's block, the two as a vector, their sum from zero, divided by the constant. -/
def hostTail (o : FVec Ideal S2x8x128 .f32) : FVec Ideal S_ .f32 :=
  Host.divf (F := Ideal)
    (Host.reduceAdd (F := Ideal)
      (shapeCast S2 (extractStridedSlice S2x1x1 ![0, 0, 0] o slices_S2x8x128_S2x1x1_0_0_0) shapeCasts_S2x1x1_S2)
      (constant (F := Ideal) S_ .f32 0x00000000#32) reducesTo_S2_S_d0 h_S_)
    (constant (F := Ideal) S_ .f32 0x4C800000#32)

/-- The region's output array, as the host operations after the region find it. -/
theorem region_out (c : Dev nD) :
    Pipeline.withArrays (cfgs 0).spec c (V0 m c) (fun w => (dats m 0 c).arrAt w (cfgs 0).N) (Proc.devRef .tc main_v0)
      = outArr m c :=
  (Pipeline.withArrays_arr spec0 launch0.win.arr_inj c (V0 m c) (fun w => (dats m 0 c).arrAt w cfg0.N) 2).trans (final_out m c)

/-- The program's result: the host's four operations applied to the region's output array. -/
theorem tail_eq (c : Dev nD) :
    Pipeline.afterTail₀ cfgs (dats m) 0 (V0 m) [hostOps1] c main_v4 = hostTail (outArr m c) := by
  unfold Pipeline.afterTail₀
  show StableHlo.after hostOps1 _ (Proc.devRef .tc main_v4) = _
  after_results
  rw [region_out m c]
  rfl

/-- The result buffer is no window's array and is not scoped: the run's post speaks of it. -/
theorem v4_rest : main_v4 ∈ Pipeline.restRefs sig (cfgs 0).spec :=
  Pipeline.mem_restRefs_of main_v4 rfl (fun w => by fin_cases w <;> decide)

/-- THE RUN, READ: every weakly fair execution of the program ends with the result at the host's tail of
    `outArr` and the two arguments unchanged. -/
theorem run_value : θ_run defs (onTc (τ := τ) (main (F := Ideal))) ⟨m, fun _ => 0, ρ⟩ (fun r => ∀ c : Dev nD,
      r.2.mem ((c.tc : Thread nD τ).loc main_v4) = hostTail (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v4 v4_rest).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.RunValue
end
-- ==== Proof.KernelRunBlocks.lean ====
/-
  The two input windows' blocks as images of the argument arrays: at grid position n = 32 * core + l the kernel is
  handed image n of each [64,1,1024,1024] argument, as a [1,1,1024,1024] block; entry (0, 0, r, l') of the block is
  entry (n, 0, r, l') of the argument.
-/
import proofs.«151914_j52201032516261_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal

noncomputable section

open Idealize.ShloMosaic Idealize.ShloMosaic.TcCoe Idealize.SL.Sem
open Idealize.ShloMosaic.Pipeline (Dat)

namespace Cert.KernelIdeal.RunValue

open Cert.KernelIdeal Cert.KernelIdeal.Gen

variable (m : (ℓ : Loc nD τ sig) → Buf (Elt Ideal) ℓ) (ρ : Dev nD → PrngReg)

/-- Where the index maps of the two input windows send a grid position: block n along the image axis, block 0
    along the others — decided over the 64 positions. -/
theorem idx_in0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx_in1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

/-- Entry `y` of the first window's block at position `t` is the first argument at any index `j` with image
    coordinate `t` and the same row and lane. -/
theorem iblk0_apply (c : Dev nD) (t : Fin cfg0.N) (y : S1x1x1024x1024.Idx) (j : S64x1x1024x1024.Idx)
    (h0 : (j 0).val = t.val) (h2 : (j 2).val = (y 2).val) (h3 : (j 3).val = (y 3).val) :
    (iblk m c 0 t : Vec Ideal S1x1x1024x1024 .f32) y
      = (m ((c.tc : Thread nD τ).loc main_arg0) : S64x1x1024x1024.Idx → Elt Ideal .f32) j := by
  obtain ⟨i0, i1, i2, i3⟩ := idx_in0 t
  have hy0 : (y 0 : Nat) < 1 := (y 0).isLt
  have hy1 : (y 1 : Nat) < 1 := (y 1).isLt
  have hj1 : (j 1 : Nat) < 1 := (j 1).isLt
  unfold iblk
  rw [View.read_apply]
  show m ((c.tc : Thread nD τ).loc main_arg0) _ = m ((c.tc : Thread nD τ).loc main_arg0) _
  congr 1
  funext a
  apply Fin.ext
  match a with
  | ⟨0, _⟩ => show win0_0.index t 0 * 1 + 1 * (y 0).val = (j 0).val; rw [i0, h0]; omega
  | ⟨1, _⟩ => show win0_0.index t 1 * 1 + 1 * (y 1).val = (j 1).val; rw [i1]; omega
  | ⟨2, _⟩ => show win0_0.index t 2 * 1024 + 1 * (y 2).val = (j 2).val; rw [i2, h2]; omega
  | ⟨3, _⟩ => show win0_0.index t 3 * 1024 + 1 * (y 3).val = (j 3).val; rw [i3, h3]; omega

/-- The same for the second window and the second (integer) argument. -/
theorem iblk1_apply (c : Dev nD) (t : Fin cfg0.N) (y : S1x1x1024x1024.Idx) (j : S64x1x1024x1024.Idx)
    (h0 : (j 0).val = t.val) (h2 : (j 2).val = (y 2).val) (h3 : (j 3).val = (y 3).val) :
    (iblk m c 1 t : Vec Ideal S1x1x1024x1024 .i32) y
      = (m ((c.tc : Thread nD τ).loc main_arg1) : S64x1x1024x1024.Idx → Elt Ideal .i32) j := by
  obtain ⟨i0, i1, i2, i3⟩ := idx_in1 t
  have hy0 : (y 0 : Nat) < 1 := (y 0).isLt
  have hy1 : (y 1 : Nat) < 1 := (y 1).isLt
  have hj1 : (j 1 : Nat) < 1 := (j 1).isLt
  unfold iblk
  rw [View.read_apply]
  show m ((c.tc : Thread nD τ).loc main_arg1) _ = m ((c.tc : Thread nD τ).loc main_arg1) _
  congr 1
  funext a
  apply Fin.ext
  match a with
  | ⟨0, _⟩ => show win0_1.index t 0 * 1 + 1 * (y 0).val = (j 0).val; rw [i0, h0]; omega
  | ⟨1, _⟩ => show win0_1.index t 1 * 1 + 1 * (y 1).val = (j 1).val; rw [i1]; omega
  | ⟨2, _⟩ => show win0_1.index t 2 * 1024 + 1 * (y 2).val = (j 2).val; rw [i2, h2]; omega
  | ⟨3, _⟩ => show win0_1.index t 3 * 1024 + 1 * (y 3).val = (j 3).val; rw [i3, h3]; omega

open ValueIdx in
/-- Over explicit coordinates: entry (a, b, r, l) of the block at position `t` is entry (t, 0, r, l) of the argument. -/
theorem iblk0_ix (c : Dev nD) (t : Fin cfg0.N) (ht : t.val < 64) (a b : Fin 1) (r l : Fin 1024) :
    (iblk m c 0 t : Vec Ideal S1x1x1024x1024 .f32) (ix4 a b r l)
      = (m ((c.tc : Thread nD τ).loc main_arg0) : S64x1x1024x1024.Idx → Elt Ideal .f32) (ix4 (⟨t.val, ht⟩ : Fin 64) (0 : Fin 1) r l) :=
  iblk0_apply m c t (ix4 a b r l) (ix4 (⟨t.val, ht⟩ : Fin 64) (0 : Fin 1) r l) rfl rfl rfl

open ValueIdx in
theorem iblk1_ix (c : Dev nD) (t : Fin cfg0.N) (ht : t.val < 64) (a b : Fin 1) (r l : Fin 1024) :
    (iblk m c 1 t : Vec Ideal S1x1x1024x1024 .i32) (ix4 a b r l)
      = (m ((c.tc : Thread nD τ).loc main_arg1) : S64x1x1024x1024.Idx → Elt Ideal .i32) (ix4 (⟨t.val, ht⟩ : Fin 64) (0 : Fin 1) r l) :=
  iblk1_apply m c t (ix4 a b r l) (ix4 (⟨t.val, ht⟩ : Fin 64) (0 : Fin 1) r l) rfl rfl rfl

end Cert.KernelIdeal.RunValue
end
-- ==== Proof.LibFlagSums.lean ====
/-
  General lemmas over the extended reals, with no array in sight: 0/1 weights, a chain of selections, sums in chunks.

  * A one-bit flag is read as the weight 1 or 0. Multiplying by such a weight distributes over ANY sum of extended
    reals (for the weight 0 both sides are 0, for the weight 1 both sides are the sum itself), so no finiteness is
    needed anywhere.
  * Eight experts are tried in turn; a row keeps the value of the last expert whose flag is set, and 0 when no flag is
    set (`chain`). When at most one flag is set, that is the weighted sum of the experts' values.
  * A sum over `a * b` terms is the sum, over `a` chunks, of the sums over the `b` terms of each chunk.
  * A running total that starts at 0 and adds one term per step is, after step `n`, the sum of the first `n + 1` terms.
-/
import Mathlib.Data.EReal.Operations
import Mathlib.Algebra.BigOperators.Fin
import Mathlib.Logic.Equiv.Fin.Basic

open scoped BigOperators

noncomputable section

namespace Cert.ExpertSum

/-- A one-bit flag as a weight: 1 when the bit is set, else 0. -/
def flag (c : BitVec 1) : EReal := if c = 1#1 then 1 else 0

theorem flag_of_set {c : BitVec 1} (h : c = 1#1) : flag c = 1 := if_pos h
theorem flag_of_unset {c : BitVec 1} (h : ¬c = 1#1) : flag c = 0 := if_neg h

/-- A 0/1 weight distributes over a sum of two extended reals, whatever they are. -/
theorem flag_mul_add (c : BitVec 1) (a b : EReal) : flag c * (a + b) = flag c * a + flag c * b := by
  unfold flag; split_ifs <;> simp

/-- A 0/1 weight distributes over a finite sum of extended reals. -/
theorem flag_mul_sum {ι : Type*} (c : BitVec 1) (S : Finset ι) (f : ι → EReal) :
    flag c * ∑ i ∈ S, f i = ∑ i ∈ S, flag c * f i := by
  unfold flag; split_ifs <;> simp

/-- Trying the experts `0, …, n - 1` in turn: the value of the last one whose flag is set, 0 when none is. -/
def chain (c : ℕ → BitVec 1) (y : ℕ → EReal) : ℕ → EReal
  | 0 => 0
  | n + 1 => if c n = 1#1 then y n else chain c y n

theorem chain_eq_zero (c : ℕ → BitVec 1) (y : ℕ → EReal) (n : ℕ) (h : ∀ k, k < n → ¬c k = 1#1) : chain c y n = 0 := by
  induction n with
  | zero => rfl
  | succ n ih =>
    show (if c n = 1#1 then y n else chain c y n) = 0
    rw [if_neg (h n (Nat.lt_succ_self n))]
    exact ih fun k hk => h k (Nat.lt_succ_of_lt hk)

/-- When at most one of the first `n` flags is set, the weighted sum of the experts' values is the chain's value. -/
theorem sum_flag_eq_chain (c : ℕ → BitVec 1) (y : ℕ → EReal) (n : ℕ)
    (hex : ∀ a b, a < b → b < n → c b = 1#1 → ¬c a = 1#1) :
    ∀ k, k ≤ n → ∑ h ∈ Finset.range k, flag (c h) * y h = chain c y k := by
  intro k
  induction k with
  | zero => intro _; rfl
  | succ k ih =>
    intro hk
    rw [Finset.sum_range_succ]
    show _ = (if c k = 1#1 then y k else chain c y k)
    by_cases hc : c k = 1#1
    · rw [if_pos hc, flag_of_set hc, one_mul,
        Finset.sum_eq_zero (fun a ha => by
          rw [flag_of_unset (hex a k (Finset.mem_range.mp ha) hk hc), zero_mul]), zero_add]
    · rw [if_neg hc, flag_of_unset hc, zero_mul, add_zero]
      exact ih (Nat.le_of_succ_le hk)

/-- A sum over `a * b` terms, chunk by chunk: chunk `c` holds the terms `b * c, …, b * c + b - 1`. -/
theorem sum_chunks {M : Type*} [AddCommMonoid M] (a b : ℕ) (f : Fin (a * b) → M) :
    ∑ c : Fin a, ∑ k : Fin b, f (finProdFinEquiv (c, k)) = ∑ k : Fin (a * b), f k := by
  rw [← Fintype.sum_prod_type (f := fun p : Fin a × Fin b => f (finProdFinEquiv p))]
  exact finProdFinEquiv.sum_comp f

/-- The position of term `k` of chunk `c`. -/
theorem chunk_val (a b : ℕ) (c : Fin a) (k : Fin b) : (finProdFinEquiv (c, k)).val = k.val + b * c.val := rfl

/-- A running total: it starts at `t 0` added to 0 and adds `t (n + 1)` at step `n + 1`. -/
def running (t : ℕ → EReal) : ℕ → EReal
  | 0 => 0 + t 0
  | n + 1 => running t n + t (n + 1)

theorem running_eq_sum (t : ℕ → EReal) (n : ℕ) : running t n = ∑ j ∈ Finset.range (n + 1), t j := by
  induction n with
  | zero => simp [running]
  | succ n ih => rw [Finset.sum_range_succ, ← ih]; rfl

/-- A sum over the first `a * b` naturals as a double sum over chunks. -/
theorem sum_range_chunks {M : Type*} [AddCommMonoid M] (a b : ℕ) (t : ℕ → M) :
    ∑ j ∈ Finset.range (a * b), t j = ∑ c : Fin a, ∑ k : Fin b, t (k.val + b * c.val) := by
  rw [Finset.sum_range, ← sum_chunks a b (fun j => t j.val)]
  rfl

end Cert.ExpertSum

end
-- ==== Proof.KernelSum.lean ====
/-
  From the accumulator's recursion to the total over images.

  The body adds, at each grid position, the position's image loss (summed over its pixels) to a one-entry accumulator that
  starts from zero at the first position of each core's row of 32 positions. So after position 32 k + l the accumulator
  holds the running total of the image losses of positions 32 k, ..., 32 k + l, and after the row's last position the sum of
  the row's 32 image losses. Each core's output block holds that sum at every entry; the host takes one entry of each of
  the two blocks, adds them from zero and divides by the number of pixels. Two rows of 32 positions are the 64 images in
  order, so the two sums together are the total over all images: the result is the mean loss of the specification.
-/
import proofs.«151914_j52201032516261_1_alg».proof.Proof.KernelRunRun
import proofs.«151914_j52201032516261_1_alg».proof.Proof.KernelRunBlocks
import proofs.«151914_j52201032516261_1_alg».proof.Proof.Images
import proofs.«151914_j52201032516261_1_alg».proof.Proof.LibFlagSums
import Idealize.ShloMosaic.PureOps.Ideal.Laws
import Idealize.ShloMosaic.Lib.Pipeline.Value
import Idealize.ShloMosaic.Lib.ValueLayout

noncomputable section

namespace Cert.KernelIdeal.KernelSum

open Idealize.ShloMosaic Idealize.ShloMosaic.TcCoe Idealize.SL.Sem Idealize.ShloMosaic.ValueIdx
open Cert.KernelIdeal Cert.KernelIdeal.Gen Cert.KernelIdeal.RunValue Cert.Spec Cert.ExpertSum

/-- The body's accumulation law: the accumulator's entry after a point is its entry before plus the loss of the point's
    image summed over its pixels. -/
def PayLaw : Prop :=
  ∀ (x0 : Vec Ideal S1x1x1024x1024 .f32) (x1 : Vec Ideal S1x1x1024x1024 .i32) (v64 : Vec Ideal S1x1 .f32),
    k0_pay1 (k0_pay4 x0) (k0_pay6 x1) (k0_pay7 x1) (k0_pay8 x1) 1023#32 v64 (ix2 (0 : Fin 1) (0 : Fin 1))
      = v64 (ix2 (0 : Fin 1) (0 : Fin 1))
        + ∑ i : Fin 1024, ∑ j : Fin 1024, pix (fun a b => x0 (ix4 (0 : Fin 1) (0 : Fin 1) a b))
            (fun a b => ((BitVec.toInt (x1 (ix4 (0 : Fin 1) (0 : Fin 1) a b)) : ℝ) : EReal)) i j

variable (m : (ℓ : Loc nD τ sig) → Buf (Elt Ideal) ℓ) (c : Dev nD)

/-- The loss of image `n` summed over its pixels. -/
def imgTot (n : Fin 64) : EReal :=
  ∑ i : Fin 1024, ∑ j : Fin 1024,
    pix (imgF (m ((c.tc : Thread nD τ).loc main_arg0)) n) (imgI (m ((c.tc : Thread nD τ).loc main_arg1)) n) i j

/-- The same by position number (zero past the last position). -/
def T (n : ℕ) : EReal := if h : n < 64 then imgTot m c ⟨n, h⟩ else 0

/-- The accumulator's entry after position `n` (zero past the last position). -/
def accN (n : ℕ) : EReal := if h : n < cfg0.N then (outsAt0 m c n h).2 (ix2 (0 : Fin 1) (0 : Fin 1)) else 0

/-- At position `n` the body adds image `n`'s loss to the accumulator's entry. -/
theorem pay_at (hp : PayLaw) (n : ℕ) (hn : n < cfg0.N) (v64 : Vec Ideal S1x1 .f32) :
    k0_pay1 (k0_pay4 (iblk m c 0 ⟨n, hn⟩)) (k0_pay6 (iblk m c 1 ⟨n, hn⟩)) (k0_pay7 (iblk m c 1 ⟨n, hn⟩))
        (k0_pay8 (iblk m c 1 ⟨n, hn⟩)) 1023#32 v64 (ix2 (0 : Fin 1) (0 : Fin 1))
      = v64 (ix2 (0 : Fin 1) (0 : Fin 1)) + T m c n := by
  have h64 : n < 64 := lt_of_lt_of_eq hn N_0
  rw [hp]
  unfold T
  rw [dif_pos h64]
  unfold imgTot
  refine congrArg (fun s => v64 (ix2 (0 : Fin 1) (0 : Fin 1)) + s) ?_
  refine Finset.sum_congr rfl fun i _ => Finset.sum_congr rfl fun j _ => ?_
  have e0 : (fun a b => (iblk m c 0 ⟨n, hn⟩ : Vec Ideal S1x1x1024x1024 .f32) (ix4 (0 : Fin 1) (0 : Fin 1) a b))
      = imgF (m ((c.tc : Thread nD τ).loc main_arg0)) ⟨n, h64⟩ := by
    funext a b
    exact iblk0_ix m c ⟨n, hn⟩ h64 0 0 a b
  have e1 : (fun a b => ((BitVec.toInt ((iblk m c 1 ⟨n, hn⟩ : Vec Ideal S1x1x1024x1024 .i32) (ix4 (0 : Fin 1) (0 : Fin 1) a b)) : ℝ) : EReal))
      = imgI (m ((c.tc : Thread nD τ).loc main_arg1)) ⟨n, h64⟩ := by
    funext a b
    exact congrArg (fun w : BitVec 32 => ((BitVec.toInt w : ℝ) : EReal)) (iblk1_ix m c ⟨n, hn⟩ h64 0 0 a b)
  exact congrArg₂ (fun x g => pix x g i j) e0 e1

/-- The stored zero. -/
theorem pay3_zero : k0_pay3 (F := Ideal) (ix2 (0 : Fin 1) (0 : Fin 1)) = 0 := by
  unfold k0_pay3
  rw [shapeCast_self]
  exact Ideal.ofBits_zero_f32

/-- At the first position of a row the accumulator restarts from zero. -/
theorem accN_first (hp : PayLaw) (n : ℕ) (hn : n < cfg0.N) (h0 : n % 32 = 0) : accN m c n = 0 + T m c n := by
  unfold accN
  rw [dif_pos hn, acc_first m c n hn h0, pay_at m c hp n hn, pay3_zero]

/-- At any other position it adds to what the position before left. -/
theorem accN_next (hp : PayLaw) (n : ℕ) (hn : n + 1 < cfg0.N) (h0 : (n + 1) % 32 ≠ 0) :
    accN m c (n + 1) = accN m c n + T m c (n + 1) := by
  unfold accN
  rw [dif_pos hn, dif_pos (Nat.lt_of_succ_lt hn), acc_next m c n hn h0, pay_at m c hp (n + 1) hn]

/-- Along row `k` the accumulator is the running total of the row's image losses. -/
theorem accN_row (hp : PayLaw) (k : ℕ) (hk : k < 2) :
    ∀ l, l < 32 → accN m c (32 * k + l) = running (fun l => T m c (32 * k + l)) l
  | 0, _ => by
    have hN : cfg0.N = 64 := N_0
    have hn : 32 * k + 0 < cfg0.N := lt_of_lt_of_eq (by omega) hN.symm
    exact accN_first m c hp _ hn (by omega)
  | l + 1, hl => by
    have hN : cfg0.N = 64 := N_0
    have hn : 32 * k + l + 1 < cfg0.N := lt_of_lt_of_eq (by omega) hN.symm
    have h1 := accN_next m c hp (32 * k + l) hn (by omega)
    have h2 := accN_row hp k hk l (by omega)
    show accN m c (32 * k + l + 1) = running (fun l => T m c (32 * k + l)) l + T m c (32 * k + (l + 1))
    rw [h1, h2]
    rfl

/-- Every entry of core `k`'s output block is the sum of the row's 32 image losses. -/
theorem outArr_total (hp : PayLaw) (k : Fin 2) (a : Fin 8) (b : Fin 128) :
    outArr m c (ix3 k a b) = ∑ l ∈ Finset.range 32, T m c (32 * k.val + l) := by
  have hN : cfg0.N = 64 := N_0
  have hk := k.isLt
  have hn : 32 * k.val + 31 < cfg0.N := lt_of_lt_of_eq (by omega) hN.symm
  have e : outArr m c (ix3 k a b) = (outsAt0 m c (32 * k.val + 31) hn).2 (ix2 (0 : Fin 1) (0 : Fin 1)) := by
    rw [outArr_apply]
    exact congrArg (fun p : Vec Ideal S1x8x128 .f32 × Vec Ideal S1x1 .f32 => p.2 (ix2 (0 : Fin 1) (0 : Fin 1)))
      (outsAt0_congr m c (show k.val * 32 + 31 = 32 * k.val + 31 by omega) _ hn)
  have h := accN_row m c hp k.val hk 31 (by omega)
  unfold accN at h
  rw [dif_pos hn] at h
  rw [e, h, running_eq_sum]

/-- A sum over the indices of a one-axis shape is the sum over its coordinate. -/
theorem sum_idx1 {M : Type*} [AddCommMonoid M] {n : ℕ} (f : (⟨1, ![n]⟩ : Shape).Idx → M) :
    ∑ q, f q = ∑ k : Fin n, f (ix1 k) := by
  let e : (⟨1, ![n]⟩ : Shape).Idx ≃ Fin n :=
    { toFun := fun q => q 0, invFun := fun k => ix1 k, left_inv := fun q => (eq_ix1 q).symm, right_inv := fun _ => rfl }
  rw [← Equiv.sum_comp e.symm f]
  rfl

/-- The two rows of 32 positions are the 64 images in order. -/
theorem rows_total : ∑ k : Fin 2, ∑ l ∈ Finset.range 32, T m c (32 * k.val + l)
    = total (imgF (m ((c.tc : Thread nD τ).loc main_arg0))) (imgI (m ((c.tc : Thread nD τ).loc main_arg1))) := by
  have h1 : ∑ k : Fin 2, ∑ l ∈ Finset.range 32, T m c (32 * k.val + l)
      = ∑ k : Fin 2, ∑ l : Fin 32, T m c (l.val + 32 * k.val) :=
    Finset.sum_congr rfl fun k _ => by
      rw [Finset.sum_range]
      exact Finset.sum_congr rfl fun l _ => by rw [Nat.add_comm]
  rw [h1, ← sum_range_chunks 2 32 (T m c), show (2 * 32 : ℕ) = 64 from rfl, Finset.sum_range]
  unfold total
  refine Finset.sum_congr rfl fun n _ => ?_
  unfold T
  rw [dif_pos n.isLt]
  rfl

/-- The kernel's result: the mean loss of the specification. -/
theorem hostTail_eq (hp : PayLaw) :
    hostTail (outArr m c)
      = fun _ => result (imgF (m ((c.tc : Thread nD τ).loc main_arg0))) (imgI (m ((c.tc : Thread nD τ).loc main_arg1))) := by
  have hO := outArr_total m c hp
  generalize outArr m c = o at hO
  funext i0
  unfold hostTail
  show Ideal.div (Host.reduceAdd (F := Ideal)
      (shapeCast S2 (extractStridedSlice S2x1x1 ![0, 0, 0] o slices_S2x8x128_S2x1x1_0_0_0) shapeCasts_S2x1x1_S2)
      (constant (F := Ideal) S_ .f32 0x00000000#32) reducesTo_S2_S_d0 h_S_ i0) (Ideal.ofBits .f32 0x4C800000#32) = _
  have hsum : Host.reduceAdd (F := Ideal)
      (shapeCast S2 (extractStridedSlice S2x1x1 ![0, 0, 0] o slices_S2x8x128_S2x1x1_0_0_0) shapeCasts_S2x1x1_S2)
      (constant (F := Ideal) S_ .f32 0x00000000#32) reducesTo_S2_S_d0 h_S_ i0
        = 0 + total (imgF (m ((c.tc : Thread nD τ).loc main_arg0))) (imgI (m ((c.tc : Thread nD τ).loc main_arg1))) := by
    have hq : ∀ k : Fin 2,
        shapeCast S2 (extractStridedSlice S2x1x1 ![0, 0, 0] o slices_S2x8x128_S2x1x1_0_0_0) shapeCasts_S2x1x1_S2 (ix1 k)
          = ∑ l ∈ Finset.range 32, T m c (32 * k.val + l) := fun k => by
      rw [shapeCast_apply _ shapeCasts_S2x1x1_S2 (ix1 k) (ix3 k (0 : Fin 1) (0 : Fin 1)) (by
        rw [Shape.rowMajor_val_three, Shape.rowMajor_val_one]
        show (k.val * 1 + 0) * 1 + 0 = k.val
        omega)]
      rw [extractStridedSlice_apply _ o slices_S2x8x128_S2x1x1_0_0_0 (ix3 k (0 : Fin 1) (0 : Fin 1)) (ix3 k (0 : Fin 8) (0 : Fin 128)) (by
        intro a
        match a with
        | ⟨0, _⟩ => exact (Nat.zero_add _).symm
        | ⟨1, _⟩ => rfl
        | ⟨2, _⟩ => rfl)]
      exact hO k 0 0
    generalize shapeCast S2 (extractStridedSlice S2x1x1 ![0, 0, 0] o slices_S2x8x128_S2x1x1_0_0_0) shapeCasts_S2x1x1_S2 = y at hq
    simp only [Host.reduceAdd, Ideal.hostReduceAdd_def]
    rw [Ideal.hostReduceAdd_total reducesTo_S2_S_d0 (fun b => b.elim0) y _ i0]
    show Ideal.ofBits .f32 0x00000000#32 + _ = _
    rw [Ideal.ofBits_zero_f32, sum_idx1 y]
    refine congrArg (fun s => (0 : EReal) + s) ?_
    rw [← rows_total m c]
    exact Finset.sum_congr rfl fun k _ => hq k
  rw [hsum]
  rfl

end Cert.KernelIdeal.KernelSum

end
-- ==== Proof.LibTotalSum.lean ====
/-
  General facts about TOTAL SUMS of arrays over the extended reals, at the exact ("ideal") reading of the operations.

  * a reshape (`shapeCast`) re-indexes an array along a bijection of index sets, so it keeps the sum over all indices;
  * an additive `multi_reduction` over any set of axes replaces each fibre of the projection by its sum, so it keeps the
    sum over all indices;
  * an array whose shape has every axis of size one has one index, and its value there is its sum over all indices;
  * a finite sum of (coercions of) reals is the coercion of the real sum, so where every term is a real, sums may be
    regrouped, negated and re-indexed as real sums.

  Together: a chain of additive reductions and reshapes ending in a one-element array computes the total sum of what it
  started from, whatever the order of the axes and the intermediate shapes.
-/
import Idealize.ShloMosaic.PureOps.Ideal.Laws

noncomputable section

namespace Cert.LibTotalSum

open Idealize.ShloMosaic

variable {φ : FTy}

/-- A reshape keeps the sum over all indices. -/
theorem sum_shapeCast {s t : Shape} (x : s.Idx → EReal) (h : s.ShapeCasts t) :
    ∑ j : t.Idx, shapeCast t x h j = ∑ i : s.Idx, x i := by
  unfold shapeCast
  exact Equiv.sum_comp (Shape.reshapeEquiv h) x

/-- An additive reduction over any axes keeps the sum over all indices: the fibres of the projection partition the source's
    indices. -/
theorem sum_multiReduction_add {s t : Shape} {axes : List (Fin s.rank)} (src : FVec Ideal s φ) (acc : BitVec φ.bits)
    (h : s.Reduces axes t) (hφ : FKind.Formats φ) (hacc : acc = FKind.add.neutral φ hφ) :
    ∑ j : t.Idx, multiReduction .add axes t src acc h hφ hacc j = ∑ i : s.Idx, src i := by
  show ∑ j : t.Idx, Ideal.reduceAdd h src j = _
  unfold Ideal.reduceAdd
  exact Finset.sum_fiberwise Finset.univ (fun i => h.drop i) src

/-- A shape whose axes all have size one has one index. -/
theorem idx_eq_of_size_one {t : Shape} (ht : ∀ b, t.size b = 1) (i j : t.Idx) : i = j :=
  funext fun b => Fin.ext (by have := (i b).isLt; have := (j b).isLt; have := ht b; omega)

/-- The value of a one-element array at its index is its sum over all indices. -/
theorem eq_sum_of_size_one {t : Shape} (ht : ∀ b, t.size b = 1) (v : t.Idx → EReal) (j : t.Idx) :
    v j = ∑ i : t.Idx, v i := by
  rw [Finset.sum_eq_single j (fun i _ hne => absurd (idx_eq_of_size_one ht i j) hne)
    (fun h => absurd (Finset.mem_univ j) h)]

/-- The coercion of a finite real sum. -/
theorem coe_sum {ι : Type*} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- Where every term is a real, the sum is the coercion of the sum of the terms' real values. -/
theorem sum_eq_coe_sum {ι : Type*} (s : Finset ι) (f : ι → EReal) (r : ι → ℝ) (h : ∀ i ∈ s, f i = (r i : EReal)) :
    ∑ i ∈ s, f i = ((∑ i ∈ s, r i : ℝ) : EReal) := by
  rw [coe_sum]; exact Finset.sum_congr rfl h

end Cert.LibTotalSum

end
-- ==== Proof.KernelPay1.lean ====
/-
  The body's accumulator update, read as mathematics.

  The update computes, from the logits' image and three filtered copies of the mask's image, a per-pixel loss array; sums
  it over both axes into a one-entry array; and adds that entry to the accumulator's. Split here into the vertical min pass
  (the last of the four filter passes, spelt inside the update), the pointwise loss, and the summation: reshapes and the
  additive reduction keep the sum over all indices, and a one-entry array's value is its total, so the update adds the sum
  of the loss array over all pixels. The pointwise loss is the cross-entropy of the logit against the 0/1 flag
  "filtered maximum - filtered minimum > 0" (a one-bit word widened and read signed is the bit itself; 0 - a = -a).
-/
import proofs.«151914_j52201032516261_1_alg».proof.Proof.Gen.KernelIdeal.Skeleton
import proofs.«151914_j52201032516261_1_alg».proof.Proof.Spec
import proofs.«151914_j52201032516261_1_alg».proof.Proof.LibTotalSum
import Idealize.ShloMosaic.PureOps.Ideal.Laws
import Idealize.ShloMosaic.Lib.Pipeline.Value
import Idealize.ShloMosaic.Lib.ValueIdx

noncomputable section

namespace Cert.KernelIdeal.Pay1

open Idealize.ShloMosaic Idealize.ShloMosaic.ValueIdx
open Cert.KernelIdeal Cert.KernelIdeal.Gen Cert.Spec Cert.LibTotalSum

/-- The vertical min pass as the update spells it: the horizontal pass's result `v25`, its copy rotated down by one `v35`,
    and the amount of the rotation up. -/
def colmin (v25 v35 : FVec Ideal S1024x1024 .f32) (c1023_i32_15 : BitVec 32) : FVec Ideal S1024x1024 .f32 :=
  have v36 : FVec Ideal S1024x1024 .f32 := dynamicRotate 0 c1023_i32_15 none v25 rotates_S1024x1024_d0
  have cst_16 : Ideal .f32 := Scalar.ofBits .f32 0x40000000#32
  have v37 : FVec Ideal S1x1024 .f32 := broadcast S1x1024 cst_16
  have v38 : FVec Ideal S1023x1024 .f32 := extractStridedSlice S1023x1024 ![1, 0] v35 slices_S1024x1024_o1_0_S1023x1024
  have v39 : FVec Ideal S1024x1024 .f32 := concatenate S1024x1024 0 [⟨S1x1024, v37⟩, ⟨S1023x1024, v38⟩] concatenates_S1x1024_S1023x1024_S1024x1024_d0
  have v40 : FVec Ideal S1023x1024 .f32 := extractStridedSlice S1023x1024 ![0, 0] v36 slices_S1024x1024_o0_0_S1023x1024
  have v41 : FVec Ideal S1024x1024 .f32 := concatenate S1024x1024 0 [⟨S1023x1024, v40⟩, ⟨S1x1024, v37⟩] concatenates_S1023x1024_S1x1024_S1024x1024_d0
  have v42 : FVec Ideal S1024x1024 .f32 := minimumf v39 v41
  have v43 : FVec Ideal S1024x1024 .f32 := minimumf v25 v42
  v43

/-- The pointwise loss as the update spells it, from the logits `v4`, the filtered maximum `v34` and minimum `v43`. -/
def lossOf (v4 v34 v43 : FVec Ideal S1024x1024 .f32) : FVec Ideal S1024x1024 .f32 :=
  have v44 : FVec Ideal S1024x1024 .f32 := subf v34 v43
  have cst_17 : Ideal .f32 := Scalar.ofBits .f32 0x00000000#32
  have v45 : FVec Ideal S1024x1024 .f32 := broadcast S1024x1024 cst_17
  have v46 : IVec S1024x1024 1 := cmpf .ogt v44 v45
  have v47 : IVec S1024x1024 32 := extui 32 v46 natLt_1_32
  have v48 : FVec Ideal S1024x1024 .f32 := sitofp .f32 v47
  have cst_18 : Ideal .f32 := Scalar.ofBits .f32 0x00000000#32
  have v49 : FVec Ideal S1024x1024 .f32 := broadcast S1024x1024 cst_18
  have v50 : FVec Ideal S1024x1024 .f32 := maximumf v4 v49
  have v51 : FVec Ideal S1024x1024 .f32 := mulf v4 v48
  have v52 : FVec Ideal S1024x1024 .f32 := subf v50 v51
  have v53 : FVec Ideal S1024x1024 .f32 := absf v4
  have cst_19 : Ideal .f32 := Scalar.ofBits .f32 0x00000000#32
  have v54 : FVec Ideal S1024x1024 .f32 := broadcast S1024x1024 cst_19
  have v55 : FVec Ideal S1024x1024 .f32 := subf v54 v53
  have v56 : FVec Ideal S1024x1024 .f32 := exp v55
  have v57 : FVec Ideal S1024x1024 .f32 := log1p v56
  have v58 : FVec Ideal S1024x1024 .f32 := addf v52 v57
  v58

/-- The update is: the loss array, reshaped, summed over both axes, reshaped, its one entry added to the accumulator. -/
theorem pay1_eq (v4 v25 v34 v35 : FVec Ideal S1024x1024 .f32) (c : BitVec 32) (v64 : Vec Ideal S1x1 .f32) :
    k0_pay1 (F := Ideal) v4 v25 v34 v35 c v64
      = shapeCast S1x1 (addf v64 (broadcast S1x1 (extractAt ![0, 0, 0] (shapeCast S1x1x1 (multiReduction .add [1, 2] S1
          (shapeCast S1x1024x1024 (lossOf v4 v34 (colmin v25 v35 c)) shapeCasts_S1024x1024_S1x1024x1024)
          0x00000000#32 reduces_S1x1024x1024_S1 (.inl rfl) rfl) shapeCasts_S1_S1x1x1) inpos_S1x1x1_p0_0_0)))
          shapeCasts_S1x1_S1x1 := rfl

/-- The update adds the sum of the loss array over all pixels. -/
theorem pay1_sum (v4 v25 v34 v35 : FVec Ideal S1024x1024 .f32) (c : BitVec 32) (v64 : Vec Ideal S1x1 .f32) :
    k0_pay1 (F := Ideal) v4 v25 v34 v35 c v64 (ix2 (0 : Fin 1) (0 : Fin 1))
      = v64 (ix2 (0 : Fin 1) (0 : Fin 1)) + ∑ y : S1024x1024.Idx, lossOf v4 v34 (colmin v25 v35 c) y := by
  rw [pay1_eq]
  generalize lossOf v4 v34 (colmin v25 v35 c) = L
  rw [shapeCast_self]
  refine congrArg (fun s => v64 (ix2 (0 : Fin 1) (0 : Fin 1)) + s) ?_
  show extractAt ![0, 0, 0] (shapeCast S1x1x1 (multiReduction .add [1, 2] S1
          (shapeCast S1x1024x1024 L shapeCasts_S1024x1024_S1x1024x1024)
          0x00000000#32 reduces_S1x1024x1024_S1 (.inl rfl) rfl) shapeCasts_S1_S1x1x1) inpos_S1x1x1_p0_0_0 = _
  unfold extractAt
  refine (eq_sum_of_size_one (t := S1x1x1) (by decide) _ _).trans ?_
  refine (sum_shapeCast _ _).trans ?_
  refine (sum_multiReduction_add _ _ _ _ _).trans ?_
  exact sum_shapeCast _ _

/-- A one-bit word widened to 32 bits and read signed is the bit itself. -/
theorem flag_eq (b : BitVec 1) : ((((b.setWidth 32).toInt : ℤ) : ℝ) : EReal) = ((b.toNat : ℝ) : EReal) := by
  have h : ∀ b : BitVec 1, (b.setWidth 32).toInt = (b.toNat : ℤ) := by decide
  rw [h b]
  norm_cast

/-- The loss at a pixel: the cross-entropy of the logit against the flag "maximum - minimum > 0". -/
theorem lossOf_apply (v4 v34 v43 : FVec Ideal S1024x1024 .f32) (i j : Fin 1024) :
    lossOf v4 v34 v43 (ix2 i j) = bce (v4 (ix2 i j)) (pos01 (v34 (ix2 i j) - v43 (ix2 i j))) := by
  have hneg : ∀ a : EReal, (0 : EReal) - a = -a := fun a => by rw [sub_eq_add_neg, zero_add]
  unfold bce pos01
  rw [← hneg (max (v4 (ix2 i j)) (-(v4 (ix2 i j)))), ← flag_eq, ← Ideal.ofBits_zero_f32]
  rfl

end Cert.KernelIdeal.Pay1

end
-- ==== Proof.KernelPayShift.lean ====
/-
  The body's shifted copies of an image as bordered reads.  The body moves a [1024,1024] image by one column or
  one row with a rotation (which wraps around), cuts the wrapped column or row off, and puts a column or row of a
  fixed value in its place.  Read at pixel (i, j), each such copy is the image read with a one-pixel border of that
  value at the neighbouring bordered position: the wrapped line is exactly the one the fixed value replaces.
-/
import proofs.«151914_j52201032516261_1_alg».proof.Proof.Gen.KernelIdeal.Skeleton
import proofs.«151914_j52201032516261_1_alg».proof.Proof.Spec
import proofs.«151914_j52201032516261_1_alg».proof.Proof.Consts
import Idealize.ShloMosaic.Lib.KernelVsHost
import Idealize.ShloMosaic.Lib.Pipeline.Value
import Idealize.ShloMosaic.Lib.ValueLayout
import Idealize.ShloMosaic.Lib.ValueIdx

noncomputable section

namespace Cert.KernelIdeal.PayShift

open Cert.KernelIdeal Cert.KernelIdeal.Gen Cert.Spec Idealize.ShloMosaic Idealize.ShloMosaic.ValueIdx

/-- The image moved one column to the right, the first column filled: position (i, j) reads the bordered image one
    column to the left of pixel (i, j). -/
theorem shift_left (Y : FVec Ideal S1024x1024 .f32) (w : BitVec 32) (i j : Fin 1024) :
    concatenate S1024x1024 1 [⟨S1024x1, broadcast S1024x1 (Scalar.ofBits (F := Ideal) .f32 w)⟩, ⟨S1024x1023, extractStridedSlice S1024x1023 ![0, 1] (dynamicRotate 1 1#32 none Y rotates_S1024x1024_d1) slices_S1024x1024_o0_1_S1024x1023⟩] concatenates_S1024x1_S1024x1023_S1024x1024_d1 (ix2 i j)
      = pad (Ideal.ofBits .f32 w) (fun a b => Y (ix2 a b)) (i.val + 1) (j.val + 0) := by
  have hi := i.isLt
  have hj := j.isLt
  by_cases h0 : j.val = 0
  · rw [pad_of_out _ _ (by omega)]
    refine (concatenate_pair_apply_left (t := S1024x1024) (s₁ := S1024x1) (s₂ := S1024x1023) (1 : Fin 2) _ _ _ (ix2 i j) rfl (ix2 i (⟨0, Nat.one_pos⟩ : Fin 1)) (fun b => ?_)).trans rfl
    match b with
    | ⟨0, _⟩ => rfl
    | ⟨1, _⟩ => exact h0.symm
  · rw [pad_of_in _ _ ⟨⟨by omega, by omega⟩, ⟨by omega, by omega⟩⟩]
    refine (concatenate_pair_apply_right (t := S1024x1024) (s₁ := S1024x1) (s₂ := S1024x1023) (1 : Fin 2) _ _ _ (ix2 i j) rfl rfl (ix2 i (⟨j.val - 1, by omega⟩ : Fin 1023)) (fun b hb => ?_) ?_).trans ?_
    · match b with
      | ⟨0, _⟩ => rfl
      | ⟨1, _⟩ => exact absurd rfl hb
    · show j.val - 1 + 1 = j.val; omega
    refine (slice2_axis1_apply 1 _ _ i (⟨j.val - 1, by omega⟩ : Fin 1023) j (by show j.val = 1 + (j.val - 1); omega)).trans ?_
    refine (dynamicRotate_apply (1 : Fin 2) 1#32 Y _ (ix2 i j) (ix2 i (⟨j.val - 1, by omega⟩ : Fin 1024)) (fun b => ?_)).trans ?_
    · match b with
      | ⟨0, _⟩ => rfl
      | ⟨1, _⟩ => show j.val - 1 = (j.val + 1024 - (1#32 : BitVec 32).toNat % 1024) % 1024; rw [show (1#32 : BitVec 32).toNat = 1 from rfl]; omega
    · exact congrArg Y (congrArg₂ ix2 (Fin.ext (by show i.val = i.val + 1 - 1; omega)) (Fin.ext (by show j.val - 1 = j.val + 0 - 1; omega)))

/-- The image moved one column to the left, the last column filled: position (i, j) reads the bordered image one
    column to the right of pixel (i, j). -/
theorem shift_right (Y : FVec Ideal S1024x1024 .f32) (w : BitVec 32) (i j : Fin 1024) :
    concatenate S1024x1024 1 [⟨S1024x1023, extractStridedSlice S1024x1023 ![0, 0] (dynamicRotate 1 1023#32 none Y rotates_S1024x1024_d1) slices_S1024x1024_o0_0_S1024x1023⟩, ⟨S1024x1, broadcast S1024x1 (Scalar.ofBits (F := Ideal) .f32 w)⟩] concatenates_S1024x1023_S1024x1_S1024x1024_d1 (ix2 i j)
      = pad (Ideal.ofBits .f32 w) (fun a b => Y (ix2 a b)) (i.val + 1) (j.val + 2) := by
  have hi := i.isLt
  have hj := j.isLt
  by_cases h0 : j.val = 1023
  · rw [pad_of_out _ _ (by omega)]
    refine (concatenate_pair_apply_right (t := S1024x1024) (s₁ := S1024x1023) (s₂ := S1024x1) (1 : Fin 2) _ _ _ (ix2 i j) rfl rfl (ix2 i (⟨0, Nat.one_pos⟩ : Fin 1)) (fun b hb => ?_) ?_).trans rfl
    · match b with
      | ⟨0, _⟩ => rfl
      | ⟨1, _⟩ => exact absurd rfl hb
    · show 0 + 1023 = j.val; omega
  · rw [pad_of_in _ _ ⟨⟨by omega, by omega⟩, ⟨by omega, by omega⟩⟩]
    refine (concatenate_pair_apply_left (t := S1024x1024) (s₁ := S1024x1023) (s₂ := S1024x1) (1 : Fin 2) _ _ _ (ix2 i j) rfl (ix2 i (⟨j.val, by omega⟩ : Fin 1023)) (fun b => ?_)).trans ?_
    · match b with
      | ⟨0, _⟩ => rfl
      | ⟨1, _⟩ => rfl
    refine (slice2_axis1_apply 0 _ _ i (⟨j.val, by omega⟩ : Fin 1023) j (by show j.val = 0 + j.val; omega)).trans ?_
    refine (dynamicRotate_apply (1 : Fin 2) 1023#32 Y _ (ix2 i j) (ix2 i (⟨j.val + 1, by omega⟩ : Fin 1024)) (fun b => ?_)).trans ?_
    · match b with
      | ⟨0, _⟩ => rfl
      | ⟨1, _⟩ => show j.val + 1 = (j.val + 1024 - (1023#32 : BitVec 32).toNat % 1024) % 1024; rw [show (1023#32 : BitVec 32).toNat = 1023 from rfl]; omega
    · exact congrArg Y (congrArg₂ ix2 (Fin.ext (by show i.val = i.val + 1 - 1; omega)) (Fin.ext (by show j.val + 1 = j.val + 2 - 1; omega)))

/-- The image moved one row down, the first row filled: position (i, j) reads the bordered image one row above
    pixel (i, j). -/
theorem shift_up (Y : FVec Ideal S1024x1024 .f32) (w : BitVec 32) (i j : Fin 1024) :
    concatenate S1024x1024 0 [⟨S1x1024, broadcast S1x1024 (Scalar.ofBits (F := Ideal) .f32 w)⟩, ⟨S1023x1024, extractStridedSlice S1023x1024 ![1, 0] (dynamicRotate 0 1#32 none Y rotates_S1024x1024_d0) slices_S1024x1024_o1_0_S1023x1024⟩] concatenates_S1x1024_S1023x1024_S1024x1024_d0 (ix2 i j)
      = pad (Ideal.ofBits .f32 w) (fun a b => Y (ix2 a b)) (i.val + 0) (j.val + 1) := by
  have hi := i.isLt
  have hj := j.isLt
  by_cases h0 : i.val = 0
  · rw [pad_of_out _ _ (by omega)]
    refine (concatenate_pair_apply_left (t := S1024x1024) (s₁ := S1x1024) (s₂ := S1023x1024) (0 : Fin 2) _ _ _ (ix2 i j) rfl (ix2 (⟨0, Nat.one_pos⟩ : Fin 1) j) (fun b => ?_)).trans rfl
    match b with
    | ⟨0, _⟩ => exact h0.symm
    | ⟨1, _⟩ => rfl
  · rw [pad_of_in _ _ ⟨⟨by omega, by omega⟩, ⟨by omega, by omega⟩⟩]
    refine (concatenate_pair_apply_right (t := S1024x1024) (s₁ := S1x1024) (s₂ := S1023x1024) (0 : Fin 2) _ _ _ (ix2 i j) rfl rfl (ix2 (⟨i.val - 1, by omega⟩ : Fin 1023) j) (fun b hb => ?_) ?_).trans ?_
    · match b with
      | ⟨0, _⟩ => exact absurd rfl hb
      | ⟨1, _⟩ => rfl
    · show i.val - 1 + 1 = i.val; omega
    refine (slice2_axis0_apply 1 _ _ (⟨i.val - 1, by omega⟩ : Fin 1023) j i (by show i.val = 1 + (i.val - 1); omega)).trans ?_
    refine (dynamicRotate_apply (0 : Fin 2) 1#32 Y _ (ix2 i j) (ix2 (⟨i.val - 1, by omega⟩ : Fin 1024) j) (fun b => ?_)).trans ?_
    · match b with
      | ⟨0, _⟩ => show i.val - 1 = (i.val + 1024 - (1#32 : BitVec 32).toNat % 1024) % 1024; rw [show (1#32 : BitVec 32).toNat = 1 from rfl]; omega
      | ⟨1, _⟩ => rfl
    · exact congrArg Y (congrArg₂ ix2 (Fin.ext (by show i.val - 1 = i.val + 0 - 1; omega)) (Fin.ext (by show j.val = j.val + 1 - 1; omega)))

/-- The image moved one row up, the last row filled: position (i, j) reads the bordered image one row below
    pixel (i, j). -/
theorem shift_down (Y : FVec Ideal S1024x1024 .f32) (w : BitVec 32) (i j : Fin 1024) :
    concatenate S1024x1024 0 [⟨S1023x1024, extractStridedSlice S1023x1024 ![0, 0] (dynamicRotate 0 1023#32 none Y rotates_S1024x1024_d0) slices_S1024x1024_o0_0_S1023x1024⟩, ⟨S1x1024, broadcast S1x1024 (Scalar.ofBits (F := Ideal) .f32 w)⟩] concatenates_S1023x1024_S1x1024_S1024x1024_d0 (ix2 i j)
      = pad (Ideal.ofBits .f32 w) (fun a b => Y (ix2 a b)) (i.val + 2) (j.val + 1) := by
  have hi := i.isLt
  have hj := j.isLt
  by_cases h0 : i.val = 1023
  · rw [pad_of_out _ _ (by omega)]
    refine (concatenate_pair_apply_right (t := S1024x1024) (s₁ := S1023x1024) (s₂ := S1x1024) (0 : Fin 2) _ _ _ (ix2 i j) rfl rfl (ix2 (⟨0, Nat.one_pos⟩ : Fin 1) j) (fun b hb => ?_) ?_).trans rfl
    · match b with
      | ⟨0, _⟩ => exact absurd rfl hb
      | ⟨1, _⟩ => rfl
    · show 0 + 1023 = i.val; omega
  · rw [pad_of_in _ _ ⟨⟨by omega, by omega⟩, ⟨by omega, by omega⟩⟩]
    refine (concatenate_pair_apply_left (t := S1024x1024) (s₁ := S1023x1024) (s₂ := S1x1024) (0 : Fin 2) _ _ _ (ix2 i j) rfl (ix2 (⟨i.val, by omega⟩ : Fin 1023) j) (fun b => ?_)).trans ?_
    · match b with
      | ⟨0, _⟩ => rfl
      | ⟨1, _⟩ => rfl
    refine (slice2_axis0_apply 0 _ _ (⟨i.val, by omega⟩ : Fin 1023) j i (by show i.val = 0 + i.val; omega)).trans ?_
    refine (dynamicRotate_apply (0 : Fin 2) 1023#32 Y _ (ix2 i j) (ix2 (⟨i.val + 1, by omega⟩ : Fin 1024) j) (fun b => ?_)).trans ?_
    · match b with
      | ⟨0, _⟩ => show i.val + 1 = (i.val + 1024 - (1023#32 : BitVec 32).toNat % 1024) % 1024; rw [show (1023#32 : BitVec 32).toNat = 1023 from rfl]; omega
      | ⟨1, _⟩ => rfl
    · exact congrArg Y (congrArg₂ ix2 (Fin.ext (by show i.val + 1 = i.val + 2 - 1; omega)) (Fin.ext (by show j.val = j.val + 1 - 1; omega)))

end Cert.KernelIdeal.PayShift
end
-- ==== Proof.KernelPayShiftApply.lean ====
/-
  The body's intermediate images, read pixel by pixel.  The integer mask block, as reals, is an image g.  The body's
  "row minimum" is g combined with its left and right neighbours under min, border 2; its "window maximum" is the
  same with max and border -1, followed by the same combination with the rows above and below.  Each is one of the
  separable passes over bordered reads.
-/
import proofs.«151914_j52201032516261_1_alg».proof.Proof.KernelPayShift

noncomputable section

namespace Cert.KernelIdeal.PayShift

open Cert.KernelIdeal Cert.KernelIdeal.Gen Cert.Spec Idealize.ShloMosaic Idealize.ShloMosaic.ValueIdx

/-- The mask block as an image of reals: the signed integer at row a, column b. -/
def maskImg (x1 : Vec Ideal S1x1x1024x1024 .i32) : Fin 1024 → Fin 1024 → EReal :=
  fun a b => (((x1 (ix4 (0 : Fin 1) (0 : Fin 1) a b)).toInt : ℝ) : EReal)

/-- The logits block as a [1024,1024] image: the same entries. -/
theorem pay4_apply (x0 : Vec Ideal S1x1x1024x1024 .f32) (a b : Fin 1024) :
    k0_pay4 (F := Ideal) x0 (ix2 a b) = x0 (ix4 (0 : Fin 1) (0 : Fin 1) a b) := by
  unfold k0_pay4
  exact congrArg x0 (reshapeEquiv_ix2_11ab _ a b)

/-- The mask block as a [1024,1024] image of reals. -/
theorem pay5_apply (x1 : Vec Ideal S1x1x1024x1024 .i32) (a b : Fin 1024) :
    k0_pay5 (F := Ideal) x1 (ix2 a b) = maskImg x1 a b := by
  unfold k0_pay5 maskImg
  exact congrArg (fun z : BitVec 32 => ((z.toInt : ℝ) : EReal)) (congrArg x1 (reshapeEquiv_ix2_11ab _ a b))

/-- An image combined under min with its two horizontally shifted copies is the horizontal min pass. -/
theorem hmin_apply (Y : FVec Ideal S1024x1024 .f32) (w : BitVec 32) (i j : Fin 1024) :
    (minimumf Y (minimumf (concatenate S1024x1024 1 [⟨S1024x1, broadcast S1024x1 (Scalar.ofBits (F := Ideal) .f32 w)⟩, ⟨S1024x1023, extractStridedSlice S1024x1023 ![0, 1] (dynamicRotate 1 1#32 none Y rotates_S1024x1024_d1) slices_S1024x1024_o0_1_S1024x1023⟩] concatenates_S1024x1_S1024x1023_S1024x1024_d1) (concatenate S1024x1024 1 [⟨S1024x1023, extractStridedSlice S1024x1023 ![0, 0] (dynamicRotate 1 1023#32 none Y rotates_S1024x1024_d1) slices_S1024x1024_o0_0_S1024x1023⟩, ⟨S1024x1, broadcast S1024x1 (Scalar.ofBits (F := Ideal) .f32 w)⟩] concatenates_S1024x1023_S1024x1_S1024x1024_d1))) (ix2 i j)
      = hpass min (Ideal.ofBits .f32 w) (fun a b => Y (ix2 a b)) i j := by
  unfold hpass
  exact (minimumf_apply _ _ _).trans (congrArg (min (Y (ix2 i j))) ((minimumf_apply _ _ _).trans (congrArg₂ min (shift_left Y w i j) (shift_right Y w i j))))

/-- The same under max. -/
theorem hmax_apply (Y : FVec Ideal S1024x1024 .f32) (w : BitVec 32) (i j : Fin 1024) :
    (maximumf Y (maximumf (concatenate S1024x1024 1 [⟨S1024x1, broadcast S1024x1 (Scalar.ofBits (F := Ideal) .f32 w)⟩, ⟨S1024x1023, extractStridedSlice S1024x1023 ![0, 1] (dynamicRotate 1 1#32 none Y rotates_S1024x1024_d1) slices_S1024x1024_o0_1_S1024x1023⟩] concatenates_S1024x1_S1024x1023_S1024x1024_d1) (concatenate S1024x1024 1 [⟨S1024x1023, extractStridedSlice S1024x1023 ![0, 0] (dynamicRotate 1 1023#32 none Y rotates_S1024x1024_d1) slices_S1024x1024_o0_0_S1024x1023⟩, ⟨S1024x1, broadcast S1024x1 (Scalar.ofBits (F := Ideal) .f32 w)⟩] concatenates_S1024x1023_S1024x1_S1024x1024_d1))) (ix2 i j)
      = hpass max (Ideal.ofBits .f32 w) (fun a b => Y (ix2 a b)) i j := by
  unfold hpass
  exact (maximumf_apply _ _ _).trans (congrArg (max (Y (ix2 i j))) ((maximumf_apply _ _ _).trans (congrArg₂ max (shift_left Y w i j) (shift_right Y w i j))))

/-- An image combined under min with its two vertically shifted copies is the vertical min pass. -/
theorem vmin_apply (Y : FVec Ideal S1024x1024 .f32) (w : BitVec 32) (i j : Fin 1024) :
    (minimumf Y (minimumf (concatenate S1024x1024 0 [⟨S1x1024, broadcast S1x1024 (Scalar.ofBits (F := Ideal) .f32 w)⟩, ⟨S1023x1024, extractStridedSlice S1023x1024 ![1, 0] (dynamicRotate 0 1#32 none Y rotates_S1024x1024_d0) slices_S1024x1024_o1_0_S1023x1024⟩] concatenates_S1x1024_S1023x1024_S1024x1024_d0) (concatenate S1024x1024 0 [⟨S1023x1024, extractStridedSlice S1023x1024 ![0, 0] (dynamicRotate 0 1023#32 none Y rotates_S1024x1024_d0) slices_S1024x1024_o0_0_S1023x1024⟩, ⟨S1x1024, broadcast S1x1024 (Scalar.ofBits (F := Ideal) .f32 w)⟩] concatenates_S1023x1024_S1x1024_S1024x1024_d0))) (ix2 i j)
      = vpass min (Ideal.ofBits .f32 w) (fun a b => Y (ix2 a b)) i j := by
  unfold vpass
  exact (minimumf_apply _ _ _).trans (congrArg (min (Y (ix2 i j))) ((minimumf_apply _ _ _).trans (congrArg₂ min (shift_up Y w i j) (shift_down Y w i j))))

/-- The same under max. -/
theorem vmax_apply (Y : FVec Ideal S1024x1024 .f32) (w : BitVec 32) (i j : Fin 1024) :
    (maximumf Y (maximumf (concatenate S1024x1024 0 [⟨S1x1024, broadcast S1x1024 (Scalar.ofBits (F := Ideal) .f32 w)⟩, ⟨S1023x1024, extractStridedSlice S1023x1024 ![1, 0] (dynamicRotate 0 1#32 none Y rotates_S1024x1024_d0) slices_S1024x1024_o1_0_S1023x1024⟩] concatenates_S1x1024_S1023x1024_S1024x1024_d0) (concatenate S1024x1024 0 [⟨S1023x1024, extractStridedSlice S1023x1024 ![0, 0] (dynamicRotate 0 1023#32 none Y rotates_S1024x1024_d0) slices_S1024x1024_o0_0_S1023x1024⟩, ⟨S1x1024, broadcast S1x1024 (Scalar.ofBits (F := Ideal) .f32 w)⟩] concatenates_S1023x1024_S1x1024_S1024x1024_d0))) (ix2 i j)
      = vpass max (Ideal.ofBits .f32 w) (fun a b => Y (ix2 a b)) i j := by
  unfold vpass
  exact (maximumf_apply _ _ _).trans (congrArg (max (Y (ix2 i j))) ((maximumf_apply _ _ _).trans (congrArg₂ max (shift_up Y w i j) (shift_down Y w i j))))

/-- The mask image, read through the [1024,1024] reshape. -/
theorem pay5_img (x1 : Vec Ideal S1x1x1024x1024 .i32) :
    (fun a b => k0_pay5 (F := Ideal) x1 (ix2 a b)) = maskImg x1 :=
  funext fun a => funext fun b => pay5_apply x1 a b

/-- The body's row minimum of the mask: the horizontal min pass with border 2. -/
theorem pay6_apply (x1 : Vec Ideal S1x1x1024x1024 .i32) (i j : Fin 1024) :
    k0_pay6 (F := Ideal) x1 (ix2 i j) = hpass min 2 (maskImg x1) i j := by
  refine (hmin_apply (k0_pay5 (F := Ideal) x1) 0x40000000#32 i j).trans ?_
  rw [pay5_img, Cert.Consts.ofBits_two]

/-- The body's row maximum of the mask, as an image: the horizontal max pass with border -1. -/
theorem rowmax_img (x1 : Vec Ideal S1x1x1024x1024 .i32) :
    (fun a b => (maximumf (k0_pay5 (F := Ideal) x1) (maximumf (concatenate S1024x1024 1 [⟨S1024x1, broadcast S1024x1 (Scalar.ofBits (F := Ideal) .f32 0xBF800000#32)⟩, ⟨S1024x1023, extractStridedSlice S1024x1023 ![0, 1] (dynamicRotate 1 1#32 none (k0_pay5 (F := Ideal) x1) rotates_S1024x1024_d1) slices_S1024x1024_o0_1_S1024x1023⟩] concatenates_S1024x1_S1024x1023_S1024x1024_d1) (concatenate S1024x1024 1 [⟨S1024x1023, extractStridedSlice S1024x1023 ![0, 0] (dynamicRotate 1 1023#32 none (k0_pay5 (F := Ideal) x1) rotates_S1024x1024_d1) slices_S1024x1024_o0_0_S1024x1023⟩, ⟨S1024x1, broadcast S1024x1 (Scalar.ofBits (F := Ideal) .f32 0xBF800000#32)⟩] concatenates_S1024x1023_S1024x1_S1024x1024_d1))) (ix2 a b))
      = hpass max (-1) (maskImg x1) :=
  funext fun a => funext fun b => by
    refine (hmax_apply (k0_pay5 (F := Ideal) x1) 0xBF800000#32 a b).trans ?_
    rw [pay5_img, Cert.Consts.ofBits_neg_one]

/-- The body's window maximum of the mask: the two max passes with border -1. -/
theorem pay7_apply (x1 : Vec Ideal S1x1x1024x1024 .i32) (i j : Fin 1024) :
    k0_pay7 (F := Ideal) x1 (ix2 i j) = vpass max (-1) (hpass max (-1) (maskImg x1)) i j := by
  have h : k0_pay7 (F := Ideal) x1 (ix2 i j) = vpass max (Ideal.ofBits .f32 0xBF800000#32) (fun a b => (maximumf (k0_pay5 (F := Ideal) x1) (maximumf (concatenate S1024x1024 1 [⟨S1024x1, broadcast S1024x1 (Scalar.ofBits (F := Ideal) .f32 0xBF800000#32)⟩, ⟨S1024x1023, extractStridedSlice S1024x1023 ![0, 1] (dynamicRotate 1 1#32 none (k0_pay5 (F := Ideal) x1) rotates_S1024x1024_d1) slices_S1024x1024_o0_1_S1024x1023⟩] concatenates_S1024x1_S1024x1023_S1024x1024_d1) (concatenate S1024x1024 1 [⟨S1024x1023, extractStridedSlice S1024x1023 ![0, 0] (dynamicRotate 1 1023#32 none (k0_pay5 (F := Ideal) x1) rotates_S1024x1024_d1) slices_S1024x1024_o0_0_S1024x1023⟩, ⟨S1024x1, broadcast S1024x1 (Scalar.ofBits (F := Ideal) .f32 0xBF800000#32)⟩] concatenates_S1024x1023_S1024x1_S1024x1024_d1))) (ix2 a b)) i j := by
    unfold k0_pay7
    dsimp only
    exact vmax_apply _ _ i j
  rw [h, rowmax_img, Cert.Consts.ofBits_neg_one]

/-- The column minimum of an image: the vertical min pass with border 2. -/
theorem colmin_apply (v25 : FVec Ideal S1024x1024 .f32) (i j : Fin 1024) :
    (minimumf v25 (minimumf (concatenate S1024x1024 0 [⟨S1x1024, broadcast S1x1024 (Scalar.ofBits (F := Ideal) .f32 0x40000000#32)⟩, ⟨S1023x1024, extractStridedSlice S1023x1024 ![1, 0] (dynamicRotate 0 1#32 none v25 rotates_S1024x1024_d0) slices_S1024x1024_o1_0_S1023x1024⟩] concatenates_S1x1024_S1023x1024_S1024x1024_d0) (concatenate S1024x1024 0 [⟨S1023x1024, extractStridedSlice S1023x1024 ![0, 0] (dynamicRotate 0 1023#32 none v25 rotates_S1024x1024_d0) slices_S1024x1024_o0_0_S1023x1024⟩, ⟨S1x1024, broadcast S1x1024 (Scalar.ofBits (F := Ideal) .f32 0x40000000#32)⟩] concatenates_S1023x1024_S1x1024_S1024x1024_d0))) (ix2 i j)
      = vpass min 2 (fun a b => v25 (ix2 a b)) i j := by
  refine (vmin_apply v25 0x40000000#32 i j).trans ?_
  rw [Cert.Consts.ofBits_two]

end Cert.KernelIdeal.PayShift
end
-- ==== Proof.KernelPay1Apply.lean ====
/-
  The body's accumulator update adds the image's loss summed over its pixels.

  The loss array's entry at pixel (i, j) is the cross-entropy of the logit there against the flag "filtered maximum -
  filtered minimum > 0"; the filtered maximum is the two max passes with border -1 of the mask's image, the filtered minimum
  the two min passes with border 2 (the horizontal one computed ahead, the vertical one inside the update): the
  specification's pixel loss. Summing over the rank-2 index set is the double sum over rows and columns.
-/
import proofs.«151914_j52201032516261_1_alg».proof.Proof.KernelPay1
import proofs.«151914_j52201032516261_1_alg».proof.Proof.KernelPayShiftApply

noncomputable section

namespace Cert.KernelIdeal.Pay1

open Idealize.ShloMosaic Idealize.ShloMosaic.ValueIdx
open Cert.KernelIdeal Cert.KernelIdeal.Gen Cert.Spec Cert.KernelIdeal.PayShift

/-- The accumulation law of the body. -/
theorem pay1_apply (x0 : Vec Ideal S1x1x1024x1024 .f32) (x1 : Vec Ideal S1x1x1024x1024 .i32) (v64 : Vec Ideal S1x1 .f32) :
    k0_pay1 (k0_pay4 x0) (k0_pay6 x1) (k0_pay7 x1) (k0_pay8 x1) 1023#32 v64 (ix2 (0 : Fin 1) (0 : Fin 1))
      = v64 (ix2 (0 : Fin 1) (0 : Fin 1))
        + ∑ i : Fin 1024, ∑ j : Fin 1024, pix (fun a b => x0 (ix4 (0 : Fin 1) (0 : Fin 1) a b))
            (fun a b => ((BitVec.toInt (x1 (ix4 (0 : Fin 1) (0 : Fin 1) a b)) : ℝ) : EReal)) i j := by
  rw [pay1_sum, sum_idx2]
  refine congrArg (fun s => v64 (ix2 (0 : Fin 1) (0 : Fin 1)) + s)
    (Finset.sum_congr rfl fun i _ => Finset.sum_congr rfl fun j _ => ?_)
  rw [lossOf_apply]
  have hx : k0_pay4 (F := Ideal) x0 (ix2 i j) = x0 (ix4 (0 : Fin 1) (0 : Fin 1) i j) := pay4_apply x0 i j
  have hmax : k0_pay7 (F := Ideal) x1 (ix2 i j) = vpass max (-1) (hpass max (-1) (maskImg x1)) i j := pay7_apply x1 i j
  have hmin : colmin (k0_pay6 x1) (k0_pay8 x1) 1023#32 (ix2 i j) = vpass min 2 (hpass min 2 (maskImg x1)) i j :=
    (colmin_apply (k0_pay6 (F := Ideal) x1) i j).trans
      (congrArg (fun y => vpass min 2 y i j) (funext fun a => funext fun b => pay6_apply x1 a b))
  rw [hx, hmax, hmin]
  rfl

end Cert.KernelIdeal.Pay1

end
-- ==== Proof.lean ====
/-
  A mean binary cross-entropy of logits against the BOUNDARY of a binary mask: a pixel is on the boundary when its 3 x 3
  neighbourhood (clipped at the image's edge) is not constant, i.e. neighbourhood maximum - minimum > 0; the loss of a pixel
  is max(x, 0) - x z + log(1 + exp(-|x|)) with z that 0/1 flag; the result is the sum over the 64 images' 2^20 pixels each,
  divided by 2^26.

  The kernel filters each image separably (a horizontal then a vertical pass of max, and of min) and replaces the neighbours
  that fall outside the image by -1 for max and by 2 for min; the reference takes 3 x 3 window reductions whose padding is
  -inf and +inf. On a mask of zeros and ones (the precondition) every pixel lies in [-1, 2], so neither border value can
  decide a maximum or a minimum whose window always contains the centre pixel: the two filters agree (Spec, RefWindow,
  RefValue, KernelPayShift*). The kernel accumulates each image's loss into a one-entry scratch over a row of 32 grid
  positions per core, writes the row's sum to that core's output block, and the host adds the two blocks' entries and
  divides; the reference sums all pixels at once and divides. Sums of extended reals regroup freely (addition is
  commutative and associative there), so no finiteness of the logits is needed (KernelPay1*, KernelRun*, KernelSum).

  The three frames: the two kernels' are the generated frame certificates; the reference's is its run with the result
  dropped. The idealization rewrote nothing, so its soundness statement is trivial.
-/
import proofs.«151914_j52201032516261_1_alg».proof.Defs
import proofs.«151914_j52201032516261_1_alg».proof.Proof.Gen.Kernel
import proofs.«151914_j52201032516261_1_alg».proof.Proof.Gen.Kernel.Skeleton
import proofs.«151914_j52201032516261_1_alg».proof.Proof.Gen.Kernel.Launch
import proofs.«151914_j52201032516261_1_alg».proof.Proof.Gen.Kernel.Points
import proofs.«151914_j52201032516261_1_alg».proof.Proof.Gen.Kernel.Frame
import proofs.«151914_j52201032516261_1_alg».proof.Proof.Gen.KernelIdeal
import proofs.«151914_j52201032516261_1_alg».proof.Proof.Gen.KernelIdeal.Skeleton
import proofs.«151914_j52201032516261_1_alg».proof.Proof.Gen.KernelIdeal.Launch
import proofs.«151914_j52201032516261_1_alg».proof.Proof.Gen.KernelIdeal.Points
import proofs.«151914_j52201032516261_1_alg».proof.Proof.Gen.KernelIdeal.Frame
import proofs.«151914_j52201032516261_1_alg».proof.Proof.Gen.ReferenceIdeal
import proofs.«151914_j52201032516261_1_alg».proof.Proof.Gen.Pre_finite_inputs
import proofs.«151914_j52201032516261_1_alg».proof.Proof.MaskDomain
import proofs.«151914_j52201032516261_1_alg».proof.Proof.RefValue
import proofs.«151914_j52201032516261_1_alg».proof.Proof.KernelSum
import proofs.«151914_j52201032516261_1_alg».proof.Proof.KernelPay1Apply
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame certificate. -/
theorem frame_k : Cert.frame_Kernel := fun m ρ _ => Cert.Kernel.Gen.frame m ρ

/-- The idealized kernel runs and keeps its arguments: the generated frame certificate. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both programs end at the mean loss of the specification, as a function of the argument arrays. -/
theorem algebraic : Cert.algebraic_KernelIdeal_ReferenceIdeal := by
  intro m ρ m' ρ' hpre hagree
  refine ⟨fun c _ => Cert.Spec.result
      (Cert.Spec.imgF (m ((c.tc : Thread Cert.KernelIdeal.nD Cert.KernelIdeal.τ).loc Cert.KernelIdeal.main_arg0)))
      (Cert.Spec.imgI (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.KernelSum.hostTail_eq m c Cert.KernelIdeal.Pay1.pay1_apply), (h c).2⟩)
      (Cert.KernelIdeal.RunValue.run_value m ρ)
  · refine (θ_run Cert.ReferenceIdeal.defs _ _).mono (fun _ h c => ⟨(h c).1.trans ?_, (h c).2⟩)
      (Cert.ReferenceIdeal.RunP.run (F := Ideal) m' ρ')
    rw [(hagree c).1, (hagree c).2]
    exact Cert.ReferenceIdeal.RefValue.ref_term_eq _ _ (Cert.MaskDomain.mask_01 _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
